-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v18_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x8192x128 : Shape := ⟨4, ![2, 16, 8192, 128]⟩
abbrev S2x8192 : Shape := ⟨2, ![2, 8192]⟩
abbrev S64 : Shape := ⟨1, ![64]⟩
abbrev S_ : Shape := ⟨0, ![]⟩

class Facts : Prop where
  bcast_S_S2x16x8192x128 : S_.BroadcastsInDim S2x16x8192x128 (![] : Fin 0 → Fin S2x16x8192x128.rank)
  reducesTo_S2x16x8192x128_S_d0_1_2_3 : S2x16x8192x128.ReducesTo [0, 1, 2, 3] S_
  h_S_ : 0 < S_.numel
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v15 : IVec S64 1) (main_c_5 : IVec S_ 1) : IVec S_ 1 :=
  let main_v16 : IVec S_ 1 := (fun x v => Host.reduce IntOp.andi x v reducesTo_S64_S_d0 h_S_) main_v15 main_c_5
  let main_v17 : IVec S_ 1 := andi main_v13 main_v16
  main_v17

def fn {F : FTy → Type} [FloatOps F] (main_arg0 : FVec F S2x16x8192x128 .f32) (main_arg1 : IVec S2x8192 32) (main_arg2 : FVec F S64 .f32) (main_arg3 : FVec F S64 .f32) : IVec S_ 1 :=
  let main_v0 : FVec F S2x16x8192x128 .f32 := Host.absf main_arg0
  let main_cst : FVec F S_ .f32 := constant S_ .f32 0x7F800000#32
  let main_v1 : FVec F S2x16x8192x128 .f32 := broadcastInDim S2x16x8192x128 ![] bcast_S_S2x16x8192x128 main_cst
  let main_v2 : IVec S2x16x8192x128 1 := cmpf .olt main_v0 main_v1
  let main_c : IVec S_ 1 := constantI S_ 1 1#1
  let main_v3 : IVec S_ 1 := (fun x v => Host.reduce IntOp.andi x v reducesTo_S2x16x8192x128_S_d0_1_2_3 h_S_) main_v2 main_c
  let main_v4 : FVec F S64 .f32 := Host.absf main_arg2
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_cst_4 : FVec F S_ .f32 := constant S_ .f32 0x00000000#32
  let main_v14 : FVec F S64 .f32 := broadcastInDim S64 ![] bcast_S_S64 main_cst_4
  let main_v15 : IVec S64 1 := cmpf .ogt main_arg3 main_v14
  let main_c_5 : IVec S_ 1 := constantI S_ 1 1#1
  fn_part1 (F := F) main_v13 main_v15 main_c_5
-- ==== Kernel.lean ====
abbrev S2x16x8192x128 : Shape := ⟨4, ![2, 16, 8192, 128]⟩
abbrev S2x8192 : Shape := ⟨2, ![2, 8192]⟩
abbrev S64 : Shape := ⟨1, ![64]⟩
abbrev S_ : Shape := ⟨0, ![]⟩
abbrev S8192 : Shape := ⟨1, ![8192]⟩
abbrev S64x1 : Shape := ⟨2, ![64, 1]⟩
abbrev S1x8192 : Shape := ⟨2, ![1, 8192]⟩
abbrev S64x8192 : Shape := ⟨2, ![64, 8192]⟩
abbrev S64x8192x1 : Shape := ⟨3, ![64, 8192, 1]⟩
abbrev S1 : Shape := ⟨1, ![1]⟩
abbrev S1x1x1 : Shape := ⟨3, ![1, 1, 1]⟩
abbrev S2x64x8192 : Shape := ⟨3, ![2, 64, 8192]⟩
abbrev S2x8192x64 : Shape := ⟨3, ![2, 8192, 64]⟩
abbrev S1x1x64 : Shape := ⟨3, ![1, 1, 64]⟩
abbrev S2x8192x128 : Shape := ⟨3, ![2, 8192, 128]⟩
abbrev S2x2048x64 : Shape := ⟨3, ![2, 2048, 64]⟩
abbrev S2x2048x128 : Shape := ⟨3, ![2, 2048, 128]⟩

abbrev nBuf : Space → Nat
  | .hbm => 73
  | .vmem => 6
  | .smem => 0
  | _ => 0

abbrev bufTy : (tb : Table) → Fin (tcTables nBuf tb) → BufTy
  | .hbm, ⟨0, _⟩ => ⟨S2x16x8192x128, .f32⟩
  | .hbm, ⟨1, _⟩ => ⟨S2x8192, .i32⟩
  | .hbm, ⟨2, _⟩ => ⟨S64, .f32⟩
  | .hbm, ⟨3, _⟩ => ⟨S64, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S64, .i32⟩
  | .hbm, ⟨9, _⟩ => ⟨S8192, .i32⟩
  | .hbm, ⟨10, _⟩ => ⟨S64x1, .i32⟩
  | .hbm, ⟨11, _⟩ => ⟨S64x1, .i32⟩
  | .hbm, ⟨12, _⟩ => ⟨S64x1, .i1⟩
  | .hbm, ⟨13, _⟩ => ⟨S1x8192, .i32⟩
  | .hbm, ⟨14, _⟩ => ⟨S64x1, .i32⟩
  | .hbm, ⟨15, _⟩ => ⟨S_, .i32⟩
  | .hbm, ⟨16, _⟩ => ⟨S64x1, .i32⟩
  | .hbm, ⟨17, _⟩ => ⟨S64x1, .i1⟩
  | .hbm, ⟨18, _⟩ => ⟨S_, .i32⟩
  | .hbm, ⟨19, _⟩ => ⟨S64x1, .i32⟩
  | .hbm, ⟨20, _⟩ => ⟨S64x1, .i32⟩
  | .hbm, ⟨21, _⟩ => ⟨S64x8192, .i32⟩
  | .hbm, ⟨22, _⟩ => ⟨S64x8192, .i32⟩
  | .hbm, ⟨23, _⟩ => ⟨S64x8192, .i32⟩
  | .hbm, ⟨24, _⟩ => ⟨S_, .i32⟩
  | .hbm, ⟨25, _⟩ => ⟨S64x8192, .i32⟩
  | .hbm, ⟨26, _⟩ => ⟨S64x8192, .i1⟩
  | .hbm, ⟨27, _⟩ => ⟨S_, .i32⟩
  | .hbm, ⟨28, _⟩ => ⟨S64x8192, .i32⟩
  | .hbm, ⟨29, _⟩ => ⟨S64x8192, .i1⟩
  | .hbm, ⟨30, _⟩ => ⟨S_, .i32⟩
  | .hbm, ⟨31, _⟩ => ⟨S64x1, .i32⟩
  | .hbm, ⟨32, _⟩ => ⟨S64x1, .i1⟩
  | .hbm, ⟨33, _⟩ => ⟨S64x8192, .i1⟩
  | .hbm, ⟨34, _⟩ => ⟨S64x8192, .i1⟩
  | .hbm, ⟨35, _⟩ => ⟨S64x8192, .i1⟩
  | .hbm, ⟨36, _⟩ => ⟨S64x8192, .i32⟩
  | .hbm, ⟨37, _⟩ => ⟨S64x8192, .i32⟩
  | .hbm, ⟨38, _⟩ => ⟨S64x8192, .i32⟩
  | .hbm, ⟨39, _⟩ => ⟨S1x8192, .i32⟩
  | .hbm, ⟨40, _⟩ => ⟨S64x8192, .i1⟩
  | .hbm, ⟨41, _⟩ => ⟨S64x8192, .i32⟩
  | .hbm, ⟨42, _⟩ => ⟨S64x8192, .i32⟩
  | .hbm, ⟨43, _⟩ => ⟨S_, .i32⟩
  | .hbm, ⟨44, _⟩ => ⟨S64x8192, .i32⟩
  | .hbm, ⟨45, _⟩ => ⟨S64x8192, .i1⟩
  | .hbm, ⟨46, _⟩ => ⟨S_, .i32⟩
  | .hbm, ⟨47, _⟩ => ⟨S64x8192, .i32⟩
  | .hbm, ⟨48, _⟩ => ⟨S64x8192, .i32⟩
  | .hbm, ⟨49, _⟩ => ⟨S64x8192, .i32⟩
  | .hbm, ⟨50, _⟩ => ⟨S64x8192x1, .i32⟩
  | .hbm, ⟨51, _⟩ => ⟨S1, .i32⟩
  | .hbm, ⟨52, _⟩ => ⟨S_, .i32⟩
  | .hbm, ⟨53, _⟩ => ⟨S64x8192x1, .i32⟩
  | .hbm, ⟨54, _⟩ => ⟨S64x8192x1, .i1⟩
  | .hbm, ⟨55, _⟩ => ⟨S1x1x1, .i32⟩
  | .hbm, ⟨56, _⟩ => ⟨S64x8192x1, .i32⟩
  | .hbm, ⟨57, _⟩ => ⟨S64x8192x1, .i1⟩
  | .hbm, ⟨58, _⟩ => ⟨S64x8192x1, .i1⟩
  | .hbm, ⟨59, _⟩ => ⟨S_, .i1⟩
  | .hbm, ⟨60, _⟩ => ⟨S64x8192, .i1⟩
  | .hbm, ⟨61, _⟩ => ⟨S2x64x8192, .i32⟩
  | .hbm, ⟨62, _⟩ => ⟨S2x64x8192, .i1⟩
  | .hbm, ⟨63, _⟩ => ⟨S_, .i32⟩
  | .hbm, ⟨64, _⟩ => ⟨S2x64x8192, .i32⟩
  | .hbm, ⟨65, _⟩ => ⟨S2x64x8192, .i32⟩
  | .hbm, ⟨66, _⟩ => ⟨S2x64x8192, .f32⟩
  | .hbm, ⟨67, _⟩ => ⟨S2x8192x64, .f32⟩
  | .hbm, ⟨68, _⟩ => ⟨S1x1x64, .f32⟩
  | .hbm, ⟨69, _⟩ => ⟨S2x8192x64, .f32⟩
  | .hbm, ⟨70, _⟩ => ⟨S2x8192x64, .f32⟩
  | .hbm, ⟨71, _⟩ => ⟨S2x8192x128, .f32⟩
  | .hbm, ⟨72, _⟩ => ⟨S2x8192x128, .f32⟩
  | .local _ .vmem, ⟨0, _⟩ => ⟨S2x2048x64, .f32⟩
  | .local _ .vmem, ⟨1, _⟩ => ⟨S2x2048x64, .f32⟩
  | .local _ .vmem, ⟨2, _⟩ => ⟨S2x2048x128, .f32⟩
  | .local _ .vmem, ⟨3, _⟩ => ⟨S2x2048x128, .f32⟩
  | .local _ .vmem, ⟨4, _⟩ => ⟨S2x2048x128, .f32⟩
  | .local _ .vmem, ⟨5, _⟩ => ⟨S2x2048x128, .f32⟩
  | _, _ => ⟨S2x16x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_c_1 : Ref sig .tc := ⟨.hbm, 24, rfl⟩
abbrev main_call0_v7 : Ref sig .tc := ⟨.hbm, 25, rfl⟩
abbrev main_call0_v8 : Ref sig .tc := ⟨.hbm, 26, rfl⟩
abbrev main_call0_c_2 : Ref sig .tc := ⟨.hbm, 27, rfl⟩
abbrev main_call0_v9 : Ref sig .tc := ⟨.hbm, 28, rfl⟩
abbrev main_call0_v10 : Ref sig .tc := ⟨.hbm, 29, rfl⟩
abbrev main_call0_c_3 : Ref sig .tc := ⟨.hbm, 30, rfl⟩
abbrev main_call0_v11 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_v15 : Ref sig .tc := ⟨.hbm, 35, rfl⟩
abbrev main_call0_v16 : Ref sig .tc := ⟨.hbm, 36, rfl⟩
abbrev main_call0_v17 : Ref sig .tc := ⟨.hbm, 37, rfl⟩
abbrev main_v9 : Ref sig .tc := ⟨.hbm, 38, rfl⟩
abbrev main_v10 : Ref sig .tc := ⟨.hbm, 39, rfl⟩
abbrev main_call1_v0 : Ref sig .tc := ⟨.hbm, 40, rfl⟩
abbrev main_call1_v1 : Ref sig .tc := ⟨.hbm, 41, rfl⟩
abbrev main_v11 : Ref sig .tc := ⟨.hbm, 42, rfl⟩
abbrev main_call2_c : Ref sig .tc := ⟨.hbm, 43, rfl⟩
abbrev main_call2_v0 : Ref sig .tc := ⟨.hbm, 44, rfl⟩
abbrev main_call2_v1 : Ref sig .tc := ⟨.hbm, 45, rfl⟩
abbrev main_call2_c_0 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_call2_v5 : Ref sig .tc := ⟨.hbm, 50, rfl⟩
abbrev main_call2_c_1 : Ref sig .tc := ⟨.hbm, 51, rfl⟩
abbrev main_call2_c_2 : Ref sig .tc := ⟨.hbm, 52, rfl⟩
abbrev main_call2_v6 : Ref sig .tc := ⟨.hbm, 53, rfl⟩
abbrev main_call2_v7 : Ref sig .tc := ⟨.hbm, 54, rfl⟩
abbrev main_call2_v8 : Ref sig .tc := ⟨.hbm, 55, rfl⟩
abbrev main_call2_v9 : Ref sig .tc := ⟨.hbm, 56, rfl⟩
abbrev main_call2_v10 : Ref sig .tc := ⟨.hbm, 57, rfl⟩
abbrev main_call2_v11 : Ref sig .tc := ⟨.hbm, 58, rfl⟩
abbrev main_call2_c_3 : Ref sig .tc := ⟨.hbm, 59, rfl⟩
abbrev main_call2_v12 : Ref sig .tc := ⟨.hbm, 60, rfl⟩
abbrev main_call2_v13 : Ref sig .tc := ⟨.hbm, 61, rfl⟩
abbrev main_call2_v14 : Ref sig .tc := ⟨.hbm, 62, rfl⟩
abbrev main_call2_c_4 : Ref sig .tc := ⟨.hbm, 63, rfl⟩
abbrev main_call2_v15 : Ref sig .tc := ⟨.hbm, 64, rfl⟩
abbrev main_v12 : Ref sig .tc := ⟨.hbm, 65, rfl⟩
abbrev main_v13 : Ref sig .tc := ⟨.hbm, 66, rfl⟩
abbrev main_v14 : Ref sig .tc := ⟨.hbm, 67, rfl⟩
abbrev main_v15 : Ref sig .tc := ⟨.hbm, 68, rfl⟩
abbrev main_v16 : Ref sig .tc := ⟨.hbm, 69, rfl⟩
abbrev main_v17 : Ref sig .tc := ⟨.hbm, 70, rfl⟩
abbrev main_v18_0 : Ref sig .tc := ⟨.hbm, 71, rfl⟩
abbrev main_v18_1 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  reducesTo_S2x8192_S_d0_1 : S2x8192.ReducesTo [0, 1] S_
  h_S_ : 0 < S_.numel
  bcast_S64_S64x1_0 : S64.BroadcastsInDim S64x1 (![0] : Fin 1 → Fin S64x1.rank)
  bcast_S_S64x1 : S_.BroadcastsInDim S64x1 (![] : Fin 0 → Fin S64x1.rank)
  bcast_S8192_S1x8192_1 : S8192.BroadcastsInDim S1x8192 (![1] : Fin 1 → Fin S1x8192.rank)
  bcast_S1x8192_S64x8192_0_1 : S1x8192.BroadcastsInDim S64x8192 (![0, 1] : Fin 2 → Fin S64x8192.rank)
  bcast_S64x1_S64x8192_0_1 : S64x1.BroadcastsInDim S64x8192 (![0, 1] : Fin 2 → Fin S64x8192.rank)
  bcast_S_S64x8192 : S_.BroadcastsInDim S64x8192 (![] : Fin 0 → Fin S64x8192.rank)
  bcast_S64x8192_S64x8192x1_0_1 : S64x8192.BroadcastsInDim S64x8192x1 (![0, 1] : Fin 2 → Fin S64x8192x1.rank)
  bcast_S_S64x8192x1 : S_.BroadcastsInDim S64x8192x1 (![] : Fin 0 → Fin S64x8192x1.rank)
  bcast_S1_S1x1x1_2 : S1.BroadcastsInDim S1x1x1 (![2] : Fin 1 → Fin S1x1x1.rank)
  bcast_S1x1x1_S64x8192x1_0_1_2 : S1x1x1.BroadcastsInDim S64x8192x1 (![0, 1, 2] : Fin 3 → Fin S64x8192x1.rank)
  reducesTo_S64x8192x1_S64x8192_d2 : S64x8192x1.ReducesTo [2] S64x8192
  bcast_S64x8192_S2x64x8192_1_2 : S64x8192.BroadcastsInDim S2x64x8192 (![1, 2] : Fin 2 → Fin S2x64x8192.rank)
  bcast_S_S2x64x8192 : S_.BroadcastsInDim S2x64x8192 (![] : Fin 0 → Fin S2x64x8192.rank)
  transposes_S2x64x8192_S2x8192x64_0_2_1 : S2x64x8192.Transposes [0, 2, 1] S2x8192x64
  bcast_S64_S1x1x64_2 : S64.BroadcastsInDim S1x1x64 (![2] : Fin 1 → Fin S1x1x64.rank)
  bcast_S1x1x64_S2x8192x64_0_1_2 : S1x1x64.BroadcastsInDim S2x8192x64 (![0, 1, 2] : Fin 3 → Fin S2x8192x64.rank)
  inb_S2x2048x64_S2x2048x64_0_0_0 : ∀ a, (![0, 0, 0] : Fin 3 → Nat) a + S2x2048x64.size a ≤ S2x2048x64.size a
  h_S2x2048x64 : 0 < S2x2048x64.numel
  shapeCasts_S2x2048x64_S2x2048x64 : S2x2048x64.ShapeCasts S2x2048x64
  concatenates_S2x2048x64_S2x2048x64_S2x2048x128_d2 : Shape.Concatenates [S2x2048x64, S2x2048x64] S2x2048x128 2
  inb_S2x2048x128_S2x2048x128_0_0_0 : ∀ a, (![0, 0, 0] : Fin 3 → Nat) a + S2x2048x128.size a ≤ S2x2048x128.size a
  h_S2x2048x128 : 0 < S2x2048x128.numel
  gather_S2x8192_S64x8192x1_S2x64x8192_0_1_n_n_1_2_21_wf : GatherDims.WF S2x8192 S64x8192x1 S2x64x8192 [0] [1] [] [1] [] 2 ![2, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x2048x64.size a ≤ S2x8192x64.size a
  hwx0_0 : ∀ i : grid0.Coords, EltTy.bits .f32 = 32 ∨ (Rect.block (s := S2x8192x64) S2x2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x2048x128.size a ≤ S2x8192x128.size a
  hwx0_1 : ∀ i : grid0.Coords, EltTy.bits .f32 = 32 ∨ (Rect.block (s := S2x8192x128) S2x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x2048x128.size a ≤ S2x8192x128.size a
  hwx0_2 : ∀ i : grid0.Coords, EltTy.bits .f32 = 32 ∨ (Rect.block (s := S2x8192x128) S2x2048x128.size (cc0_transform_2 i) (hinb0_2 i)).WholeWords (EltTy.packing .f32)

variable [Facts₀]

def gather_S2x8192_S64x8192x1_S2x64x8192_0_1_n_n_1_2_21 : GatherDims S2x8192 S64x8192x1 S2x64x8192 where
  offsetDims := [0]
  collapsedSliceDims := [1]
  operandBatchingDims := []
  startIndicesBatchingDims := []
  startIndexMap := [1]
  indexVectorDim := 2
  sliceSizes := ![2, 1]
  wf := gather_S2x8192_S64x8192x1_S2x64x8192_0_1_n_n_1_2_21_wf

abbrev win0_0 : Pipeline.Window sig grid0 :=
  Pipeline.Window.ofSpec (Memref.whole main_v17) S2x2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18_0) S2x2048x128.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18_1) S2x2048x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x16x8192x128 : Shape := ⟨4, ![2, 16, 8192, 128]⟩
abbrev S2x8192 : Shape := ⟨2, ![2, 8192]⟩
abbrev S64 : Shape := ⟨1, ![64]⟩
abbrev S_ : Shape := ⟨0, ![]⟩
abbrev S8192 : Shape := ⟨1, ![8192]⟩
abbrev S64x1 : Shape := ⟨2, ![64, 1]⟩
abbrev S1x8192 : Shape := ⟨2, ![1, 8192]⟩
abbrev S64x8192 : Shape := ⟨2, ![64, 8192]⟩
abbrev S64x8192x1 : Shape := ⟨3, ![64, 8192, 1]⟩
abbrev S2x64x8192 : Shape := ⟨3, ![2, 64, 8192]⟩
abbrev S2x8192x64 : Shape := ⟨3, ![2, 8192, 64]⟩
abbrev S1x1x64 : Shape := ⟨3, ![1, 1, 64]⟩
abbrev S2x8192x128 : Shape := ⟨3, ![2, 8192, 128]⟩

abbrev nBuf : Space → Nat
  | .hbm => 60
  | .vmem => 0
  | .smem => 0
  | _ => 0

abbrev bufTy : (tb : Table) → Fin (tcTables nBuf tb) → BufTy
  | .hbm, ⟨0, _⟩ => ⟨S2x16x8192x128, .f32⟩
  | .hbm, ⟨1, _⟩ => ⟨S2x8192, .i32⟩
  | .hbm, ⟨2, _⟩ => ⟨S64, .f32⟩
  | .hbm, ⟨3, _⟩ => ⟨S64, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S64, .i32⟩
  | .hbm, ⟨9, _⟩ => ⟨S8192, .i32⟩
  | .hbm, ⟨10, _⟩ => ⟨S64x1, .i32⟩
  | .hbm, ⟨11, _⟩ => ⟨S64x1, .i32⟩
  | .hbm, ⟨12, _⟩ => ⟨S64x1, .i1⟩
  | .hbm, ⟨13, _⟩ => ⟨S1x8192, .i32⟩
  | .hbm, ⟨14, _⟩ => ⟨S64x1, .i32⟩
  | .hbm, ⟨15, _⟩ => ⟨S_, .i32⟩
  | .hbm, ⟨16, _⟩ => ⟨S64x1, .i32⟩
  | .hbm, ⟨17, _⟩ => ⟨S64x1, .i1⟩
  | .hbm, ⟨18, _⟩ => ⟨S_, .i32⟩
  | .hbm, ⟨19, _⟩ => ⟨S64x1, .i32⟩
  | .hbm, ⟨20, _⟩ => ⟨S64x1, .i32⟩
  | .hbm, ⟨21, _⟩ => ⟨S64x8192, .i32⟩
  | .hbm, ⟨22, _⟩ => ⟨S64x8192, .i32⟩
  | .hbm, ⟨23, _⟩ => ⟨S64x8192, .i32⟩
  | .hbm, ⟨24, _⟩ => ⟨S_, .i32⟩
  | .hbm, ⟨25, _⟩ => ⟨S64x8192, .i32⟩
  | .hbm, ⟨26, _⟩ => ⟨S64x8192, .i1⟩
  | .hbm, ⟨27, _⟩ => ⟨S_, .i32⟩
  | .hbm, ⟨28, _⟩ => ⟨S64x8192, .i32⟩
  | .hbm, ⟨29, _⟩ => ⟨S64x8192, .i1⟩
  | .hbm, ⟨30, _⟩ => ⟨S_, .i32⟩
  | .hbm, ⟨31, _⟩ => ⟨S64x1, .i32⟩
  | .hbm, ⟨32, _⟩ => ⟨S64x1, .i1⟩
  | .hbm, ⟨33, _⟩ => ⟨S64x8192, .i1⟩
  | .hbm, ⟨34, _⟩ => ⟨S64x8192, .i1⟩
  | .hbm, ⟨35, _⟩ => ⟨S64x8192, .i1⟩
  | .hbm, ⟨36, _⟩ => ⟨S64x8192, .i32⟩
  | .hbm, ⟨37, _⟩ => ⟨S64x8192, .i32⟩
  | .hbm, ⟨38, _⟩ => ⟨S64x8192, .i32⟩
  | .hbm, ⟨39, _⟩ => ⟨S1x8192, .i32⟩
  | .hbm, ⟨40, _⟩ => ⟨S64x8192, .i1⟩
  | .hbm, ⟨41, _⟩ => ⟨S64x8192, .i32⟩
  | .hbm, ⟨42, _⟩ => ⟨S64x8192, .i32⟩
  | .hbm, ⟨43, _⟩ => ⟨S_, .i32⟩
  | .hbm, ⟨44, _⟩ => ⟨S64x8192, .i32⟩
  | .hbm, ⟨45, _⟩ => ⟨S64x8192, .i1⟩
  | .hbm, ⟨46, _⟩ => ⟨S_, .i32⟩
  | .hbm, ⟨47, _⟩ => ⟨S64x8192, .i32⟩
  | .hbm, ⟨48, _⟩ => ⟨S64x8192, .i32⟩
  | .hbm, ⟨49, _⟩ => ⟨S64x8192, .i32⟩
  | .hbm, ⟨50, _⟩ => ⟨S64x8192x1, .i32⟩
  | .hbm, ⟨51, _⟩ => ⟨S2x64x8192, .i32⟩
  | .hbm, ⟨52, _⟩ => ⟨S2x64x8192, .f32⟩
  | .hbm, ⟨53, _⟩ => ⟨S2x8192x64, .f32⟩
  | .hbm, ⟨54, _⟩ => ⟨S1x1x64, .f32⟩
  | .hbm, ⟨55, _⟩ => ⟨S2x8192x64, .f32⟩
  | .hbm, ⟨56, _⟩ => ⟨S2x8192x64, .f32⟩
  | .hbm, ⟨57, _⟩ => ⟨S2x8192x128, .f32⟩
  | .hbm, ⟨58, _⟩ => ⟨S2x8192x128, .f32⟩
  | .hbm, ⟨59, _⟩ => ⟨S2x8192x128, .f32⟩
  | _, _ => ⟨S2x16x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_c_1 : Ref sig .tc := ⟨.hbm, 24, rfl⟩
abbrev main_call0_v7 : Ref sig .tc := ⟨.hbm, 25, rfl⟩
abbrev main_call0_v8 : Ref sig .tc := ⟨.hbm, 26, rfl⟩
abbrev main_call0_c_2 : Ref sig .tc := ⟨.hbm, 27, rfl⟩
abbrev main_call0_v9 : Ref sig .tc := ⟨.hbm, 28, rfl⟩
abbrev main_call0_v10 : Ref sig .tc := ⟨.hbm, 29, rfl⟩
abbrev main_call0_c_3 : Ref sig .tc := ⟨.hbm, 30, rfl⟩
abbrev main_call0_v11 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_v15 : Ref sig .tc := ⟨.hbm, 35, rfl⟩
abbrev main_call0_v16 : Ref sig .tc := ⟨.hbm, 36, rfl⟩
abbrev main_call0_v17 : Ref sig .tc := ⟨.hbm, 37, rfl⟩
abbrev main_v9 : Ref sig .tc := ⟨.hbm, 38, rfl⟩
abbrev main_v10 : Ref sig .tc := ⟨.hbm, 39, rfl⟩
abbrev main_call1_v0 : Ref sig .tc := ⟨.hbm, 40, rfl⟩
abbrev main_call1_v1 : Ref sig .tc := ⟨.hbm, 41, rfl⟩
abbrev main_v11 : Ref sig .tc := ⟨.hbm, 42, rfl⟩
abbrev main_c_1 : Ref sig .tc := ⟨.hbm, 43, rfl⟩
abbrev main_v12 : Ref sig .tc := ⟨.hbm, 44, rfl⟩
abbrev main_v13 : Ref sig .tc := ⟨.hbm, 45, rfl⟩
abbrev main_c_2 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩

abbrev nD : Nat := 1
abbrev τ : Topo := Topo.v7x

variable {F : FTy → Type} [FloatOps F]

class Facts₀ : Prop where
  reducesTo_S2x8192_S_d0_1 : S2x8192.ReducesTo [0, 1] S_
  h_S_ : 0 < S_.numel
  bcast_S64_S64x1_0 : S64.BroadcastsInDim S64x1 (![0] : Fin 1 → Fin S64x1.rank)
  bcast_S_S64x1 : S_.BroadcastsInDim S64x1 (![] : Fin 0 → Fin S64x1.rank)
  bcast_S8192_S1x8192_1 : S8192.BroadcastsInDim S1x8192 (![1] : Fin 1 → Fin S1x8192.rank)
  bcast_S1x8192_S64x8192_0_1 : S1x8192.BroadcastsInDim S64x8192 (![0, 1] : Fin 2 → Fin S64x8192.rank)
  bcast_S64x1_S64x8192_0_1 : S64x1.BroadcastsInDim S64x8192 (![0, 1] : Fin 2 → Fin S64x8192.rank)
  bcast_S_S64x8192 : S_.BroadcastsInDim S64x8192 (![] : Fin 0 → Fin S64x8192.rank)
  bcast_S64x8192_S64x8192x1_0_1 : S64x8192.BroadcastsInDim S64x8192x1 (![0, 1] : Fin 2 → Fin S64x8192x1.rank)
  transposes_S2x64x8192_S2x8192x64_0_2_1 : S2x64x8192.Transposes [0, 2, 1] S2x8192x64
  bcast_S64_S1x1x64_2 : S64.BroadcastsInDim S1x1x64 (![2] : Fin 1 → Fin S1x1x64.rank)
  bcast_S1x1x64_S2x8192x64_0_1_2 : S1x1x64.BroadcastsInDim S2x8192x64 (![0, 1, 2] : Fin 3 → Fin S2x8192x64.rank)
  concatenates_S2x8192x64_S2x8192x64_S2x8192x128_d2 : Shape.Concatenates [S2x8192x64, S2x8192x64] S2x8192x128 2
  gather_S2x8192_S64x8192x1_S2x64x8192_0_1_n_n_1_2_21_wf : GatherDims.WF S2x8192 S64x8192x1 S2x64x8192 [0] [1] [] [1] [] 2 ![2, 1]

variable [Facts₀]

def gather_S2x8192_S64x8192x1_S2x64x8192_0_1_n_n_1_2_21 : GatherDims S2x8192 S64x8192x1 S2x64x8192 where
  offsetDims := [0]
  collapsedSliceDims := [1]
  operandBatchingDims := []
  startIndicesBatchingDims := []
  startIndexMap := [1]
  indexVectorDim := 2
  sliceSizes := ![2, 1]
  wf := gather_S2x8192_S64x8192x1_S2x64x8192_0_1_n_n_1_2_21_wf

class Facts : Prop extends Facts₀ where

variable [Facts]
-- ==== Proof.Spec.lean ====
/-
  The rotary-embedding angles as functions of the argument arrays.

  Both programs compute, before any cosine or sine is taken, the same table of angles
  freqs(b, l, d) = float(pos(b, n(d, l))) · inv(d), where n(d, l) is the position that frequency d reads at
  sequence position l: with w(d) the wavelength truncated to an integer and s = max(pos) + 1,
  the index is l mod w(d) (the remainder with the divisor's sign, a zero divisor replaced by 1) when w(d) ≤ s,
  and l otherwise; a negative index is wrapped once by the row length 8192.
  The two programs differ in one place only: one of them replaces the looked-up position by the smallest
  integer wherever the wrapped index falls outside 0 … 8191 (`filled`), the other looks it up
  unconditionally (`gath`).  Each definition below is one step of that computation, spelt as the programs spell it.
-/
import proofs.«123574_j67980742361241_2_alg».proof.Proof.Gen.KernelIdeal

noncomputable section

namespace Cert.Rope

open Idealize.ShloMosaic Cert.KernelIdeal Cert.KernelIdeal.Gen

variable {F : FTy → Type} [FloatOps F]

/-- s = max(pos) + 1: one past the largest position id (the maximum taken from the smallest integer). -/
def seqLen (pos : IVec S2x8192 32) : IVec S_ 32 :=
  addi (Host.reduce IntOp.maxsi pos (constantI S_ 32 2147483648#32) reducesTo_S2x8192_S_d0_1 h_S_) (constantI S_ 32 1#32)

/-- w(d): the wavelengths truncated to integers. -/
def wInt (wl : FVec F S64 .f32) : IVec S64 32 := fptosi 32 wl

/-- The integer wavelengths as a column [64, 1]. -/
def wCol (wl : FVec F S64 .f32) : IVec S64x1 32 := broadcastInDim S64x1 ![0] bcast_S64_S64x1_0 (wInt wl)

/-- The sequence positions 0 … 8191 as a row [1, 8192]. -/
def lRow : IVec S1x8192 32 := broadcastInDim S1x8192 ![1] bcast_S8192_S1x8192_1 (iotaInDim S8192 32 0)

/-- w(d) ≤ s, per frequency. -/
def fits (pos : IVec S2x8192 32) (wl : FVec F S64 .f32) : IVec S64x1 1 :=
  cmpi .sle (wCol wl) (broadcastInDim S64x1 ![] bcast_S_S64x1 (seqLen pos))

/-- The divisor: w(d), with 0 replaced by 1. -/
def divisor (wl : FVec F S64 .f32) : IVec S64x1 32 :=
  select (cmpi .eq (wCol wl) (broadcastInDim S64x1 ![] bcast_S_S64x1 (constantI S_ 32 0#32)))
    (broadcastInDim S64x1 ![] bcast_S_S64x1 (constantI S_ 32 1#32)) (wCol wl)

/-- The truncated remainder of l by the divisor (it has the dividend's sign). -/
def truncRem (wl : FVec F S64 .f32) : IVec S64x8192 32 :=
  Host.remsi (broadcastInDim S64x8192 ![0, 1] bcast_S1x8192_S64x8192_0_1 lRow)
    (broadcastInDim S64x8192 ![0, 1] bcast_S64x1_S64x8192_0_1 (divisor wl))

/-- l mod w(d) with the divisor's sign: the truncated remainder, plus the divisor where the remainder is
    not zero and its sign differs from the divisor's. -/
def floorMod (wl : FVec F S64 .f32) : IVec S64x8192 32 :=
  select
    (andi
      (cmpi .ne
        (cmpi .slt (truncRem wl) (broadcastInDim S64x8192 ![] bcast_S_S64x8192 (constantI S_ 32 0#32)))
        (broadcastInDim S64x8192 ![0, 1] bcast_S64x1_S64x8192_0_1
          (cmpi .slt (divisor wl) (broadcastInDim S64x1 ![] bcast_S_S64x1 (constantI S_ 32 0#32)))))
      (cmpi .ne (truncRem wl) (broadcastInDim S64x8192 ![] bcast_S_S64x8192 (constantI S_ 32 0#32))))
    (addi (truncRem wl) (broadcastInDim S64x8192 ![0, 1] bcast_S64x1_S64x8192_0_1 (divisor wl)))
    (truncRem wl)

/-- The index frequency d reads at position l: l mod w(d) where w(d) ≤ s, else l. -/
def idx (pos : IVec S2x8192 32) (wl : FVec F S64 .f32) : IVec S64x8192 32 :=
  select (broadcastInDim S64x8192 ![0, 1] bcast_S64x1_S64x8192_0_1 (fits pos wl)) (floorMod wl)
    (broadcastInDim S64x8192 ![0, 1] bcast_S1x8192_S64x8192_0_1 lRow)

/-- A negative index wrapped once by the row length: i + 8192 where i < 0. -/
def wrap (i : IVec S64x8192 32) : IVec S64x8192 32 :=
  select (cmpi .slt i (broadcastInDim S64x8192 ![] bcast_S_S64x8192 (constantI S_ 32 0#32)))
    (addi i (broadcastInDim S64x8192 ![] bcast_S_S64x8192 (constantI S_ 32 8192#32))) i

/-- The wrapped index with a trailing unit axis: the table of one-word start indices of the lookup. -/
def starts (i : IVec S64x8192 32) : IVec S64x8192x1 32 :=
  broadcastInDim S64x8192x1 ![0, 1] bcast_S64x8192_S64x8192x1_0_1 (wrap i)

/-- The lookup pos(b, start(d, l)), the start word read signed and clamped into the row. -/
def gath (pos : IVec S2x8192 32) (st : IVec S64x8192x1 32) : IVec S2x64x8192 32 :=
  Host.gather gather_S2x8192_S64x8192x1_S2x64x8192_0_1_n_n_1_2_21 pos st

/-- Whether each start lies inside the row: 0 ≤ start ≤ 8191 (the conjunction over the one start word). -/
def inRow (st : IVec S64x8192x1 32) : IVec S64x8192 1 :=
  Host.reduce IntOp.andi
    (andi (cmpi .sge st (broadcastInDim S64x8192x1 ![] bcast_S_S64x8192x1 (constantI S_ 32 0#32)))
      (cmpi .sle st (broadcastInDim S64x8192x1 ![0, 1, 2] bcast_S1x1x1_S64x8192x1_0_1_2
        (broadcastInDim S1x1x1 ![2] bcast_S1_S1x1x1_2 (constantI S1 32 8191#32)))))
    (constantI S_ 1 1#1) reducesTo_S64x8192x1_S64x8192_d2 h_S_

/-- The lookup with the smallest integer wherever the start lies outside the row. -/
def filled (pos : IVec S2x8192 32) (st : IVec S64x8192x1 32) : IVec S2x64x8192 32 :=
  select (broadcastInDim S2x64x8192 ![1, 2] bcast_S64x8192_S2x64x8192_1_2 (inRow st)) (gath pos st)
    (broadcastInDim S2x64x8192 ![] bcast_S_S2x64x8192 (constantI S_ 32 2147483648#32))

/-- The angles: the looked-up positions as floats, frequencies moved last, times the inverse frequencies. -/
def freqs (g : IVec S2x64x8192 32) (inv : FVec F S64 .f32) : FVec F S2x8192x64 .f32 :=
  mulf (transpose S2x8192x64 [0, 2, 1] (sitofp .f32 g) transposes_S2x64x8192_S2x8192x64_0_2_1)
    (broadcastInDim S2x8192x64 ![0, 1, 2] bcast_S1x1x64_S2x8192x64_0_1_2
      (broadcastInDim S1x1x64 ![2] bcast_S64_S1x1x64_2 inv))

/-- Column j of the doubled table [2, 8192, 128] reads column j mod 64 of the angles. -/
def half (i : S2x8192x128.Idx) : S2x8192x64.Idx := fun a => match a with
  | ⟨0, _⟩ => ⟨(i 0).val, (i 0).isLt⟩
  | ⟨1, _⟩ => ⟨(i 1).val, (i 1).isLt⟩
  | ⟨2, _⟩ => ⟨(i 2).val % 64, Nat.mod_lt _ (by decide)⟩

end Cert.Rope

end
-- ==== Proof.InRowWord.lean ====
/-
  One element of the index computation, as 32-bit words read signed.

  For one frequency with integer wavelength w ≥ 0 and one sequence position l, 0 ≤ l ≤ 8191, the index the
  programs compute is: the divisor v = (w = 0 ? 1 : w) ≥ 1; the truncated remainder r = l rem v, which lies in
  0 … l because both operands are nonnegative; the sign correction of the floor remainder, which never fires
  because neither r nor v is negative; the choice between r and l; and the wrap of a negative index, which
  never fires either.  So the start word lies in 0 … 8191 and the in-row test answers 1.
-/
import Idealize.ShloMosaic.Lib.Affine
import Idealize.ShloMosaic.Lib.ValueIdx

namespace Cert.Rope

open Idealize.ShloMosaic Idealize.ShloMosaic.ValueIdx

/-! ## Truncation of a positive extended real -/

/-- Clamped truncation toward zero of a positive extended real lies between 0 and the upper clamp. -/
theorem toIntClamped_pos_bounds (lo hi : Int) (hlo : lo ≤ 0) (hhi : 0 ≤ hi) (x : EReal) (hx : 0 < x) :
    0 ≤ Ideal.toIntClamped lo hi x ∧ Ideal.toIntClamped lo hi x ≤ hi := by
  induction x using EReal.rec with
  | bot => exact absurd hx (by simp)
  | top => exact ⟨hhi, le_refl _⟩
  | coe r =>
    have hr : 0 ≤ r := (EReal.coe_pos.1 hx).le
    rw [Ideal.toIntClamped_coe, if_pos hr]
    exact ⟨le_max_of_le_right (le_min hhi (Int.floor_nonneg.2 hr)), max_le (hlo.trans hhi) (min_le_left _ _)⟩

/-- The 32-bit integer a positive extended real truncates to is not negative. -/
theorem fptosi_toInt_nonneg (x : EReal) (hx : 0 < x) : 0 ≤ (Ideal.fptosi 32 x).toInt := by
  obtain ⟨h0, h1⟩ := toIntClamped_pos_bounds (-((2 ^ (32 - 1) : Nat) : Int)) (((2 ^ (32 - 1) : Nat) : Int) - 1)
    (by norm_num) (by norm_num) x hx
  unfold Ideal.fptosi
  rw [BitVec.toInt_ofInt_eq_self (by decide) (by norm_num at h0 h1 ⊢; omega) (by norm_num at h0 h1 ⊢; omega)]
  exact h0

/-! ## The words of one element -/

/-- The divisor: the integer wavelength, 1 in place of 0. -/
def sDivisor (w : BitVec 32) : BitVec 32 := Scalar.select (IntOp.cmpi .eq w 0#32) 1#32 w

/-- The truncated remainder of the position by the divisor. -/
def sTruncRem (w l : BitVec 32) : BitVec 32 := IntOp.remsi .host l (sDivisor w)

/-- The remainder with the divisor's sign. -/
def sFloorMod (w l : BitVec 32) : BitVec 32 :=
  Scalar.select
    (IntOp.andi (IntOp.cmpi .ne (IntOp.cmpi .slt (sTruncRem w l) 0#32) (IntOp.cmpi .slt (sDivisor w) 0#32))
      (IntOp.cmpi .ne (sTruncRem w l) 0#32))
    (IntOp.addi (sTruncRem w l) (sDivisor w)) (sTruncRem w l)

/-- The index: the floor remainder where the condition bit is set, else the position. -/
def sIdx (c : BitVec 1) (w l : BitVec 32) : BitVec 32 := Scalar.select c (sFloorMod w l) l

/-- A negative index wrapped once by the row length. -/
def sWrap (i : BitVec 32) : BitVec 32 := Scalar.select (IntOp.cmpi .slt i 0#32) (IntOp.addi i 8192#32) i

/-- Whether a start word lies in 0 … 8191. -/
def sInRow (s : BitVec 32) : BitVec 1 := IntOp.andi (IntOp.cmpi .sge s 0#32) (IntOp.cmpi .sle s 8191#32)

/-- "x < y" answers 0 when y ≤ x as signed integers. -/
theorem cmpi_slt_eq_zero {x y : BitVec 32} (h : y.toInt ≤ x.toInt) : IntOp.cmpi .slt x y = 0#1 :=
  eq_zero_of_ne_one fun e => absurd (IntOp.cmpi_slt.1 e) (by omega)

/-- A position below 8192 reads as itself. -/
theorem toInt_ofNat_pos {n : Nat} (hn : n < 8192) : (BitVec.ofNat 32 n).toInt = n := by
  rw [BitVec.toInt_eq_toNat_of_lt (by rw [BitVec.toNat_ofNat]; omega), BitVec.toNat_ofNat]; omega

/-- The divisor of a nonnegative wavelength is at least 1. -/
theorem one_le_sDivisor {w : BitVec 32} (hw : 0 ≤ w.toInt) : 1 ≤ (sDivisor w).toInt := by
  unfold sDivisor
  by_cases h : w = 0#32
  · rw [IntOp.cmpi_eq.2 h, select_one]; decide
  · rw [eq_zero_of_ne_one (fun e => h (IntOp.cmpi_eq.1 e)), select_zero]
    have : w.toInt ≠ 0 := fun e => h (BitVec.toInt_inj.1 (e.trans BitVec.toInt_zero.symm))
    omega

/-- The truncated remainder of a position by a divisor ≥ 1 lies in 0 … 8191. -/
theorem sTruncRem_bounds {w : BitVec 32} (hw : 0 ≤ w.toInt) {n : Nat} (hn : n < 8192) :
    0 ≤ (sTruncRem w (BitVec.ofNat 32 n)).toInt ∧ (sTruncRem w (BitVec.ofNat 32 n)).toInt ≤ 8191 := by
  have hd := one_le_sDivisor hw
  unfold sTruncRem
  rw [IntOp.remsi_of_pos .host (by omega), BitVec.toInt_srem, toInt_ofNat_pos hn]
  have h0 := Int.tmod_nonneg (sDivisor w).toInt (Int.natCast_nonneg n)
  refine ⟨h0, ?_⟩
  rcases lt_or_ge (n : Int) (sDivisor w).toInt with hlt | hge
  · rw [Int.tmod_eq_of_lt (Int.natCast_nonneg n) hlt]; omega
  · have := Int.tmod_lt_of_pos (n : Int) (show 0 < (sDivisor w).toInt by omega); omega

/-- Neither the remainder nor the divisor is negative, so the sign correction never fires. -/
theorem sFloorMod_eq {w : BitVec 32} (hw : 0 ≤ w.toInt) {n : Nat} (hn : n < 8192) :
    sFloorMod w (BitVec.ofNat 32 n) = sTruncRem w (BitVec.ofNat 32 n) := by
  have hd := one_le_sDivisor hw
  obtain ⟨h0, -⟩ := sTruncRem_bounds hw hn
  unfold sFloorMod
  rw [cmpi_slt_eq_zero (x := sTruncRem w (BitVec.ofNat 32 n)) (y := 0#32) (by rw [BitVec.toInt_zero]; exact h0),
    cmpi_slt_eq_zero (x := sDivisor w) (y := 0#32) (by rw [BitVec.toInt_zero]; omega),
    show IntOp.cmpi .ne (0#1) (0#1) = 0#1 from by decide,
    show ∀ c : BitVec 1, IntOp.andi 0#1 c = 0#1 from by decide, select_zero]

/-- The index lies in 0 … 8191 whichever way the choice goes. -/
theorem sIdx_bounds (c : BitVec 1) {w : BitVec 32} (hw : 0 ≤ w.toInt) {n : Nat} (hn : n < 8192) :
    0 ≤ (sIdx c w (BitVec.ofNat 32 n)).toInt ∧ (sIdx c w (BitVec.ofNat 32 n)).toInt ≤ 8191 := by
  unfold sIdx
  rw [sFloorMod_eq hw hn]
  rcases BitVec.eq_zero_or_eq_one c with rfl | rfl
  · rw [select_zero, toInt_ofNat_pos hn]; omega
  · rw [select_one]; exact sTruncRem_bounds hw hn

/-- An index that is not negative is not wrapped. -/
theorem sWrap_eq {i : BitVec 32} (h : 0 ≤ i.toInt) : sWrap i = i := by
  unfold sWrap
  rw [cmpi_slt_eq_zero (by rw [BitVec.toInt_zero]; exact h), select_zero]

/-- A start word in 0 … 8191 passes the in-row test. -/
theorem sInRow_eq_one {s : BitVec 32} (h0 : 0 ≤ s.toInt) (h1 : s.toInt ≤ 8191) : sInRow s = 1#1 :=
  IntOp.andi_eq_one.2 ⟨IntOp.cmpi_sge.2 (by rw [BitVec.toInt_zero]; exact h0),
    IntOp.cmpi_sle.2 (by rw [show (8191#32 : BitVec 32).toInt = 8191 from by decide]; exact h1)⟩

/-- The start word of one element passes the in-row test. -/
theorem sInRow_start (c : BitVec 1) {w : BitVec 32} (hw : 0 ≤ w.toInt) {n : Nat} (hn : n < 8192) :
    sInRow (sWrap (sIdx c w (BitVec.ofNat 32 n))) = 1#1 := by
  obtain ⟨h0, h1⟩ := sIdx_bounds c hw hn
  rw [sWrap_eq h0]
  exact sInRow_eq_one h0 h1

end Cert.Rope
-- ==== Proof.InRow.lean ====
/-
  The guarded lookup is the lookup.

  With every wavelength positive, the integer wavelength of each frequency is not negative, so by the word
  computation of one element every start index lies in 0 … 8191.  The in-row test is then 1 at every start, its
  conjunction over the one start word is 1, and the select on it takes the looked-up position everywhere.
  The vector operations are read at an index given by coordinates; each broadcast is read at the index it maps to.
-/
import proofs.«123574_j67980742361241_2_alg».proof.Proof.Spec
import proofs.«123574_j67980742361241_2_alg».proof.Proof.InRowWord
import Idealize.ShloMosaic.Lib.Pipeline.Value
import Idealize.ShloMosaic.PureOps.Reduce

noncomputable section

namespace Cert.Rope

open Idealize.ShloMosaic Idealize.ShloMosaic.ValueIdx Cert.KernelIdeal Cert.KernelIdeal.Gen

/-! ## Integer vector operations read at an index -/

section Pointwise
variable {s t : Shape} {w : Nat}

theorem cmpi_apply (p : CmpIPredicate) (x y : IVec s w) (i : s.Idx) : cmpi p x y i = IntOp.cmpi p (x i) (y i) := rfl
theorem andi_apply (x y : IVec s w) (i : s.Idx) : andi x y i = IntOp.andi (x i) (y i) := rfl
theorem addi_apply (x y : IVec s w) (i : s.Idx) : addi x y i = IntOp.addi (x i) (y i) := rfl
theorem hostRemsi_apply (x y : IVec s w) (i : s.Idx) : Host.remsi x y i = IntOp.remsi .host (x i) (y i) := rfl
/-- A broadcast integer constant reads the constant. -/
theorem bconst_apply (dims : Fin s.rank → Fin t.rank) (h : s.BroadcastsInDim t dims) (b : BitVec w) (j : t.Idx) :
    broadcastInDim t dims h (constantI s w b) j = b := rfl

end Pointwise

/-- A conjunction of ones, from one, is one. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_one f l (fun n hn => h n (List.mem_cons_of_mem _ hn))

/-! ## The index computation read at (d, l) -/

/-- A column [64, 1] broadcast along the rows reads, at (d, l), the column's entry d. -/
theorem colB_apply {α : Type} (X : S64x1.Idx → α) (d : Fin 64) (l : Fin 8192) :
    broadcastInDim S64x8192 ![0, 1] bcast_S64x1_S64x8192_0_1 X (ix2 d l) = X (ix2 d (0 : Fin 1)) :=
  broadcastInDim_apply _ _ X _ _ (fun a => by
    match a with
    | ⟨0, _⟩ => rfl
    | ⟨1, _⟩ => rfl)

/-- The integer wavelengths as a column read, at (d, 0), wavelength d truncated. -/
theorem wCol_apply (wl : FVec Ideal S64 .f32) (d : Fin 64) (z : Fin 1) :
    wCol wl (ix2 d z) = Ideal.fptosi 32 (wl (ix1 d)) := by
  unfold wCol
  exact broadcastInDim_apply _ _ (wInt wl) _ (ix1 d) (fun a => by
    match a with
    | ⟨0, _⟩ => rfl)

/-- The divisor column at (d, 0). -/
theorem divisor_apply (wl : FVec Ideal S64 .f32) (d : Fin 64) (z : Fin 1) :
    divisor wl (ix2 d z) = sDivisor (Ideal.fptosi 32 (wl (ix1 d))) := by
  unfold divisor sDivisor
  simp only [select_apply, cmpi_apply, bconst_apply, wCol_apply]

/-- The positions row broadcast down the frequencies reads, at (d, l), the word l. -/
theorem lRowB_apply (d : Fin 64) (l : Fin 8192) :
    broadcastInDim S64x8192 ![0, 1] bcast_S1x8192_S64x8192_0_1 lRow (ix2 d l) = BitVec.ofNat 32 l.val := rfl

/-- The truncated remainder at (d, l). -/
theorem truncRem_apply (wl : FVec Ideal S64 .f32) (d : Fin 64) (l : Fin 8192) :
    truncRem wl (ix2 d l) = sTruncRem (Ideal.fptosi 32 (wl (ix1 d))) (BitVec.ofNat 32 l.val) := by
  unfold truncRem sTruncRem
  rw [hostRemsi_apply, lRowB_apply, colB_apply, divisor_apply]

/-- The floor remainder at (d, l). -/
theorem floorMod_apply (wl : FVec Ideal S64 .f32) (d : Fin 64) (l : Fin 8192) :
    floorMod wl (ix2 d l) = sFloorMod (Ideal.fptosi 32 (wl (ix1 d))) (BitVec.ofNat 32 l.val) := by
  unfold floorMod sFloorMod
  simp only [select_apply, cmpi_apply, andi_apply, addi_apply, bconst_apply, truncRem_apply]
  rw [colB_apply, colB_apply, cmpi_apply, bconst_apply, divisor_apply]

/-- The index at (d, l), whatever the comparison of the wavelength with the sequence length answers. -/
theorem idx_apply (pos : IVec S2x8192 32) (wl : FVec Ideal S64 .f32) (d : Fin 64) (l : Fin 8192) :
    ∃ c : BitVec 1, idx pos wl (ix2 d l) = sIdx c (Ideal.fptosi 32 (wl (ix1 d))) (BitVec.ofNat 32 l.val) := by
  refine ⟨broadcastInDim S64x8192 ![0, 1] bcast_S64x1_S64x8192_0_1 (fits pos wl) (ix2 d l), ?_⟩
  unfold idx sIdx
  rw [select_apply, floorMod_apply, lRowB_apply]

/-- The start word at (d, l, 0) is the wrapped index at (d, l). -/
theorem starts_apply (i : IVec S64x8192 32) (d : Fin 64) (l : Fin 8192) (z : Fin 1) :
    starts i (ix3 d l z) = sWrap (i (ix2 d l)) := by
  unfold starts
  exact broadcastInDim_apply _ _ (wrap i) _ (ix2 d l) (fun a => by
    match a with
    | ⟨0, _⟩ => rfl
    | ⟨1, _⟩ => rfl)

/-! ## Every start lies inside the row -/

/-- With every wavelength positive the in-row test is 1 everywhere. -/
theorem inRow_starts_eq_one (pos : IVec S2x8192 32) (wl : FVec Ideal S64 .f32) (hw : ∀ d : S64.Idx, (0 : EReal) < wl d)
    (j : S64x8192.Idx) : inRow (starts (idx pos wl)) j = 1#1 := by
  unfold inRow
  rw [Host.reduce_eq_foldl]
  refine foldl_andi_one _ _ (fun i _ => ?_)
  obtain ⟨d, l, z, rfl⟩ : ∃ (d : Fin 64) (l : Fin 8192) (z : Fin 1), i = ix3 d l z := ⟨i 0, i 1, i 2, eq_ix3 i⟩
  show sInRow (starts (idx pos wl) (ix3 d l z)) = 1#1
  obtain ⟨c, hc⟩ := idx_apply pos wl d l
  rw [starts_apply, hc]
  exact sInRow_start c (fptosi_toInt_nonneg _ (hw (ix1 d))) l.isLt

/-- With every wavelength positive, every wrapped index lies inside the row, so the guarded lookup is the lookup. -/
theorem filled_eq_gath (pos : IVec S2x8192 32) (wl : FVec Ideal S64 .f32) (hw : ∀ d : S64.Idx, (0 : EReal) < wl d) :
    filled pos (starts (idx pos wl)) = gath pos (starts (idx pos wl)) := by
  funext j
  unfold filled
  rw [select_apply]
  have h1 : broadcastInDim S2x64x8192 ![1, 2] bcast_S64x8192_S2x64x8192_1_2 (inRow (starts (idx pos wl))) j = 1#1 := by
    unfold broadcastInDim
    exact inRow_starts_eq_one pos wl hw _
  rw [h1, select_one]

end Cert.Rope

end
-- ==== Proof.InRowPre.lean ====
/-
  The precondition's last conjunct, read entry by entry.

  The predicate on the argument arrays is a conjunction of four "all" tests, the last being "wavelength > 0" at every
  frequency.  The conjunction being 1, its last conjunct is 1; an "all" that is 1 had a 1 at every entry; and the
  comparison with the constant 0 answering 1 at the ideal values says the wavelength is positive.
-/
import proofs.«123574_j67980742361241_2_alg».proof.Defs
import proofs.«123574_j67980742361241_2_alg».proof.Proof.Gen.Pre_finite_inputs
import Idealize.ShloMosaic.Lib.ReduceAll
import Idealize.ShloMosaic.Lib.ValueIdx
import Idealize.ShloMosaic.PureOps.Ideal.Laws

noncomputable section

namespace Cert.Rope

open Idealize.ShloMosaic Idealize.ShloMosaic.ValueIdx Idealize.SL.Sem

/-- "x > 0" answering 1 at the ideal values says 0 < x. -/
theorem pos_of_cmp_ogt_zero {x : EReal} (h : Ideal.cmp .ogt x (Ideal.ofBits .f32 0x00000000#32) = 1#1) : 0 < x := by
  rw [Ideal.ofBits_zero_f32] at h
  have h' : BitVec.ofBool (decide ((0 : EReal) < x)) = 1#1 := h
  by_contra hn
  rw [decide_eq_false hn] at h'
  exact absurd h' (by decide)

/-- The precondition's last conjunct, read entry by entry: every wavelength is positive. -/
theorem wavelengths_pos (m : (ℓ : Loc Cert.KernelIdeal.nD Cert.KernelIdeal.τ Cert.KernelIdeal.sig) → Buf (Elt Ideal) ℓ)
    (h : Cert.Pre_KernelIdeal m) (c : Dev Cert.KernelIdeal.nD) (d : Cert.KernelIdeal.S64.Idx) :
    (0 : EReal) < m ((c.tc : Thread Cert.KernelIdeal.nD Cert.KernelIdeal.τ).loc Cert.KernelIdeal.main_arg3) d := by
  have h0 := congrFun (h c) ix0
  obtain ⟨-, h1⟩ := IntOp.andi_eq_one.1 h0
  have h2 := Host.reduce_andi_all _ _ _ _ _ h1 d
  exact pos_of_cmp_ogt_zero h2

end Cert.Rope

end
-- ==== Proof.SpecSteps.lean ====
/-
  The steps of the index computation as functions of the values they are applied to.

  `Cert.Rope`'s `divisor`, `truncRem`, `floorMod` and `idx` are stated over the argument arrays.  Read off a
  program, each step is met applied to the contents of the buffers the earlier steps left: the row of positions,
  the column of integer wavelengths, the column of comparisons.  These are the same steps over those values;
  at the values the earlier steps compute they are the former, by unfolding.
-/
import proofs.«123574_j67980742361241_2_alg».proof.Proof.Spec

noncomputable section

namespace Cert.Rope

open Idealize.ShloMosaic Cert.KernelIdeal Cert.KernelIdeal.Gen

variable {F : FTy → Type} [FloatOps F]

/-- The divisor of a column of integers: the entry, with 0 replaced by 1. -/
def divisorOf (wc : IVec S64x1 32) : IVec S64x1 32 :=
  select (cmpi .eq wc (broadcastInDim S64x1 ![] bcast_S_S64x1 (constantI S_ 32 0#32)))
    (broadcastInDim S64x1 ![] bcast_S_S64x1 (constantI S_ 32 1#32)) wc

/-- The truncated remainder of a row of integers by a column's divisors. -/
def truncRemOf (lr : IVec S1x8192 32) (wc : IVec S64x1 32) : IVec S64x8192 32 :=
  Host.remsi (broadcastInDim S64x8192 ![0, 1] bcast_S1x8192_S64x8192_0_1 lr)
    (broadcastInDim S64x8192 ![0, 1] bcast_S64x1_S64x8192_0_1 (divisorOf wc))

/-- The remainder with the divisor's sign, of a row by a column. -/
def floorModOf (lr : IVec S1x8192 32) (wc : IVec S64x1 32) : IVec S64x8192 32 :=
  select
    (andi
      (cmpi .ne
        (cmpi .slt (truncRemOf lr wc) (broadcastInDim S64x8192 ![] bcast_S_S64x8192 (constantI S_ 32 0#32)))
        (broadcastInDim S64x8192 ![0, 1] bcast_S64x1_S64x8192_0_1
          (cmpi .slt (divisorOf wc) (broadcastInDim S64x1 ![] bcast_S_S64x1 (constantI S_ 32 0#32)))))
      (cmpi .ne (truncRemOf lr wc) (broadcastInDim S64x8192 ![] bcast_S_S64x8192 (constantI S_ 32 0#32))))
    (addi (truncRemOf lr wc) (broadcastInDim S64x8192 ![0, 1] bcast_S64x1_S64x8192_0_1 (divisorOf wc)))
    (truncRemOf lr wc)

/-- The choice, per frequency, between the remainder table and the row of positions. -/
def idxOf (f : IVec S64x1 1) (fm : IVec S64x8192 32) (lr : IVec S1x8192 32) : IVec S64x8192 32 :=
  select (broadcastInDim S64x8192 ![0, 1] bcast_S64x1_S64x8192_0_1 f) fm
    (broadcastInDim S64x8192 ![0, 1] bcast_S1x8192_S64x8192_0_1 lr)

/-- The row of positions from the vector 0 … 8191. -/
def rowOf (v : IVec S8192 32) : IVec S1x8192 32 := broadcastInDim S1x8192 ![1] bcast_S8192_S1x8192_1 v

theorem divisor_eq_of (wl : FVec F S64 .f32) : divisor wl = divisorOf (wCol wl) := rfl
theorem truncRem_eq_of (wl : FVec F S64 .f32) : truncRem wl = truncRemOf lRow (wCol wl) := rfl
theorem floorMod_eq_of (wl : FVec F S64 .f32) : floorMod wl = floorModOf lRow (wCol wl) := rfl
theorem idx_eq_of (pos : IVec S2x8192 32) (wl : FVec F S64 .f32) :
    idx pos wl = idxOf (fits pos wl) (floorModOf lRow (wCol wl)) lRow := rfl
theorem lRow_eq_of : lRow = rowOf (iotaInDim S8192 32 0) := rfl

end Cert.Rope

end
-- ==== Proof.KernelAnglesS0.lean ====
/-
  The host operations before the region, first stretch, read from arbitrary buffer contents: the vector of
  positions 0 … 8191, the comparison of each integer wavelength with the sequence length, the row of positions and
  the column of integer wavelengths; the argument arrays are kept.
-/
import proofs.«123574_j67980742361241_2_alg».proof.Proof.Gen.KernelIdeal.Frame
import proofs.«123574_j67980742361241_2_alg».proof.Proof.Spec
import proofs.«123574_j67980742361241_2_alg».proof.Proof.SpecSteps

noncomputable section

namespace Cert.Rope

open Idealize.ShloMosaic Idealize.ShloMosaic.TcCoe Idealize.ShloMosaic.StableHlo Idealize.SL.Sem
open Cert.KernelIdeal Cert.KernelIdeal.Gen

variable {F : FTy → Type} [FloatOps F]

/-! ## The first stretch: the vector of positions, the comparison column, the row and the column -/

section S0
variable (W : Valuation τ sig (Elt F))

attribute [local irreducible] Host.reduce Host.gather in
theorem s0_v3 : after hostOps0 W (main_v3 : DevRef τ sig) = iotaInDim S8192 32 0 := by
  simp only [hostOps0]; after_results_simp

attribute [local irreducible] Host.reduce Host.gather in
theorem s0_v6 : after hostOps0 W (main_v6 : DevRef τ sig)
    = fits (W (main_arg1 : DevRef τ sig)) (W (main_arg3 : DevRef τ sig)) := by
  simp only [hostOps0]; after_results_simp; rfl

attribute [local irreducible] Host.reduce Host.gather in
theorem s0_v7 : after hostOps0 W (main_v7 : DevRef τ sig) = lRow := by
  simp only [hostOps0]; after_results_simp; rfl

attribute [local irreducible] Host.reduce Host.gather in
theorem s0_v8 : after hostOps0 W (main_v8 : DevRef τ sig) = wCol (W (main_arg3 : DevRef τ sig)) := by
  simp only [hostOps0]; after_results_simp; rfl

theorem s0_arg1 : after hostOps0 W (main_arg1 : DevRef τ sig) = W (main_arg1 : DevRef τ sig) := by
  simp only [hostOps0]; after_results_simp
theorem s0_arg2 : after hostOps0 W (main_arg2 : DevRef τ sig) = W (main_arg2 : DevRef τ sig) := by
  simp only [hostOps0]; after_results_simp

end S0

end Cert.Rope

end
-- ==== Proof.KernelAnglesS1.lean ====
/-
  The host operations before the region, second stretch, read from arbitrary buffer contents: the remainder of the
  row of positions by the column of wavelengths, with the divisor's sign; the buffers later stretches read are kept.
  The stretch is a called function's body: its operations read and write through typed references, whose
  transports along the buffer types are the identity at literal references.
-/
import proofs.«123574_j67980742361241_2_alg».proof.Proof.Gen.KernelIdeal.Frame
import proofs.«123574_j67980742361241_2_alg».proof.Proof.Spec
import proofs.«123574_j67980742361241_2_alg».proof.Proof.SpecSteps

noncomputable section

namespace Cert.Rope

open Idealize.ShloMosaic Idealize.ShloMosaic.TcCoe Idealize.ShloMosaic.StableHlo Idealize.SL.Sem
open Cert.KernelIdeal Cert.KernelIdeal.Gen

variable {F : FTy → Type} [FloatOps F]

/-! ## The second stretch: the remainder with the divisor's sign -/

section S1
variable (W : Valuation τ sig (Elt F))

attribute [local irreducible] Host.reduce Host.gather in
theorem s1_v9 : after hostOps0_1 W (main_v9 : DevRef τ sig)
    = floorModOf (W (main_v7 : DevRef τ sig)) (W (main_v8 : DevRef τ sig)) := by
  simp only [hostOps0_1]; after_results_simp
  simp only [TRef.toBuf, TRef.ofBuf, cast_cast, cast_eq]
  unfold floorModOf truncRemOf divisorOf
  rfl

theorem s1_v3 : after hostOps0_1 W (main_v3 : DevRef τ sig) = W (main_v3 : DevRef τ sig) := by
  simp only [hostOps0_1]; after_results_simp
theorem s1_v6 : after hostOps0_1 W (main_v6 : DevRef τ sig) = W (main_v6 : DevRef τ sig) := by
  simp only [hostOps0_1]; after_results_simp
theorem s1_arg1 : after hostOps0_1 W (main_arg1 : DevRef τ sig) = W (main_arg1 : DevRef τ sig) := by
  simp only [hostOps0_1]; after_results_simp
theorem s1_arg2 : after hostOps0_1 W (main_arg2 : DevRef τ sig) = W (main_arg2 : DevRef τ sig) := by
  simp only [hostOps0_1]; after_results_simp

end S1

end Cert.Rope

end
-- ==== Proof.KernelAnglesS23.lean ====
/-
  The host operations before the region, third and fourth stretches, read from arbitrary buffer contents: the row
  of positions once more, and the choice per frequency between the remainder table and the row; the buffers later
  stretches read are kept.
-/
import proofs.«123574_j67980742361241_2_alg».proof.Proof.Gen.KernelIdeal.Frame
import proofs.«123574_j67980742361241_2_alg».proof.Proof.Spec
import proofs.«123574_j67980742361241_2_alg».proof.Proof.SpecSteps

noncomputable section

namespace Cert.Rope

open Idealize.ShloMosaic Idealize.ShloMosaic.TcCoe Idealize.ShloMosaic.StableHlo Idealize.SL.Sem
open Cert.KernelIdeal Cert.KernelIdeal.Gen

variable {F : FTy → Type} [FloatOps F]

/-! ## The third and fourth stretches: the row of positions again, and the choice of index -/

section S23
variable (W : Valuation τ sig (Elt F))

theorem s2_v10 : after hostOps0_2 W (main_v10 : DevRef τ sig) = rowOf (W (main_v3 : DevRef τ sig)) := by
  simp only [hostOps0_2]; after_results_simp; rfl

theorem s2_v6 : after hostOps0_2 W (main_v6 : DevRef τ sig) = W (main_v6 : DevRef τ sig) := by
  simp only [hostOps0_2]; after_results_simp
theorem s2_v9 : after hostOps0_2 W (main_v9 : DevRef τ sig) = W (main_v9 : DevRef τ sig) := by
  simp only [hostOps0_2]; after_results_simp
theorem s2_arg1 : after hostOps0_2 W (main_arg1 : DevRef τ sig) = W (main_arg1 : DevRef τ sig) := by
  simp only [hostOps0_2]; after_results_simp
theorem s2_arg2 : after hostOps0_2 W (main_arg2 : DevRef τ sig) = W (main_arg2 : DevRef τ sig) := by
  simp only [hostOps0_2]; after_results_simp

theorem s3_v11 : after hostOps0_3 W (main_v11 : DevRef τ sig)
    = idxOf (W (main_v6 : DevRef τ sig)) (W (main_v9 : DevRef τ sig)) (W (main_v10 : DevRef τ sig)) := by
  simp only [hostOps0_3]; after_results_simp
  simp only [TRef.toBuf, TRef.ofBuf, cast_cast, cast_eq]
  unfold idxOf
  rfl

theorem s3_arg1 : after hostOps0_3 W (main_arg1 : DevRef τ sig) = W (main_arg1 : DevRef τ sig) := by
  simp only [hostOps0_3]; after_results_simp
theorem s3_arg2 : after hostOps0_3 W (main_arg2 : DevRef τ sig) = W (main_arg2 : DevRef τ sig) := by
  simp only [hostOps0_3]; after_results_simp

end S23

end Cert.Rope

end
-- ==== Proof.KernelAnglesS45.lean ====
/-
  The host operations before the region, fifth and sixth stretches, read from arbitrary buffer contents: the
  guarded lookup of the position ids at the wrapped indices, and the angles, the looked-up positions as floats
  times the inverse frequencies; the inverse frequencies are kept.  The fifth stretch is read in three parts — the
  start indices, the in-row test, the lookup with the select on the test — and the parts composed.
-/
import proofs.«123574_j67980742361241_2_alg».proof.Proof.Gen.KernelIdeal.Frame
import proofs.«123574_j67980742361241_2_alg».proof.Proof.Spec
import proofs.«123574_j67980742361241_2_alg».proof.Proof.SpecSteps

noncomputable section

namespace Cert.Rope

open Idealize.ShloMosaic Idealize.ShloMosaic.TcCoe Idealize.ShloMosaic.StableHlo Idealize.SL.Sem
open Cert.KernelIdeal Cert.KernelIdeal.Gen

variable {F : FTy → Type} [FloatOps F]

/-! ## The fifth stretch in three parts: the start indices, the in-row test, the guarded lookup -/

/-- The fifth stretch's first eight operations: the wrapped index with its unit axis. -/
def ops4a : List (HloOp τ sig (Elt F)) := (hostOps0_4 (F := F)).take 8
/-- Its next ten operations: the in-row test of the start indices. -/
def ops4b : List (HloOp τ sig (Elt F)) := ((hostOps0_4 (F := F)).drop 8).take 10
/-- Its last five operations: the lookup and the select on the test. -/
def ops4c : List (HloOp τ sig (Elt F)) := ((hostOps0_4 (F := F)).drop 8).drop 10

/-- The fifth stretch is its three parts in a row. -/
theorem hostOps0_4_parts : (hostOps0_4 : List (HloOp τ sig (Elt F))) = ops4a ++ (ops4b ++ ops4c) := by
  unfold ops4a ops4b ops4c
  rw [List.take_append_drop, List.take_append_drop]

/-- The select on the in-row test: the looked-up positions where the test answers 1, else the smallest integer. -/
def guarded (ok : IVec S64x8192 1) (g : IVec S2x64x8192 32) : IVec S2x64x8192 32 :=
  select (broadcastInDim S2x64x8192 ![1, 2] bcast_S64x8192_S2x64x8192_1_2 ok) g
    (broadcastInDim S2x64x8192 ![] bcast_S_S2x64x8192 (constantI S_ 32 2147483648#32))

theorem filled_eq_guarded (pos : IVec S2x8192 32) (st : IVec S64x8192x1 32) :
    filled pos st = guarded (inRow st) (gath pos st) := rfl

section S4
variable (W : Valuation τ sig (Elt F))

theorem s4a_v5 : after ops4a W (main_call2_v5 : DevRef τ sig) = starts (W (main_v11 : DevRef τ sig)) := by
  simp only [ops4a, hostOps0_4, List.take_succ_cons, List.take_zero]; after_results_simp
  simp only [TRef.toBuf, TRef.ofBuf, cast_cast, cast_eq]
  unfold starts wrap
  rfl
theorem s4a_arg1 : after ops4a W (main_arg1 : DevRef τ sig) = W (main_arg1 : DevRef τ sig) := by
  simp only [ops4a, hostOps0_4, List.take_succ_cons, List.take_zero]; after_results_simp

attribute [local irreducible] Host.reduce Host.gather in
theorem s4b_v12 : after ops4b W (main_call2_v12 : DevRef τ sig) = inRow (W (main_call2_v5 : DevRef τ sig)) := by
  simp only [ops4b, hostOps0_4, List.take_succ_cons, List.take_zero, List.drop_succ_cons, List.drop_zero]; after_results_simp
  simp only [TRef.toBuf, TRef.ofBuf, cast_cast, cast_eq]
  unfold inRow
  rfl
theorem s4b_v5 : after ops4b W (main_call2_v5 : DevRef τ sig) = W (main_call2_v5 : DevRef τ sig) := by
  simp only [ops4b, hostOps0_4, List.take_succ_cons, List.take_zero, List.drop_succ_cons, List.drop_zero]; after_results_simp
theorem s4b_arg1 : after ops4b W (main_arg1 : DevRef τ sig) = W (main_arg1 : DevRef τ sig) := by
  simp only [ops4b, hostOps0_4, List.take_succ_cons, List.take_zero, List.drop_succ_cons, List.drop_zero]; after_results_simp

attribute [local irreducible] Host.reduce Host.gather in
theorem s4c_v12 : after ops4c W (main_v12 : DevRef τ sig)
    = guarded (W (main_call2_v12 : DevRef τ sig)) (gath (W (main_arg1 : DevRef τ sig)) (W (main_call2_v5 : DevRef τ sig))) := by
  simp only [ops4c, hostOps0_4, List.drop_succ_cons, List.drop_zero]; after_results_simp
  simp only [TRef.toBuf, TRef.ofBuf, cast_cast, cast_eq]
  unfold guarded gath
  rfl

attribute [local irreducible] Host.reduce Host.gather in
theorem s4_v12 : after hostOps0_4 W (main_v12 : DevRef τ sig)
    = filled (W (main_arg1 : DevRef τ sig)) (starts (W (main_v11 : DevRef τ sig))) := by
  rw [hostOps0_4_parts, StableHlo.after_append, StableHlo.after_append, s4c_v12, s4b_v12, s4b_v5, s4b_arg1, s4a_v5, s4a_arg1,
    filled_eq_guarded]

theorem s4_arg2 : after hostOps0_4 W (main_arg2 : DevRef τ sig) = W (main_arg2 : DevRef τ sig) := by
  simp only [hostOps0_4]; after_results_simp

end S4

/-! ## The sixth stretch: the angles -/

theorem s5_v17 (W : Valuation τ sig (Elt F)) : after hostOps0_5 W (main_v17 : DevRef τ sig)
    = freqs (W (main_v12 : DevRef τ sig)) (W (main_arg2 : DevRef τ sig)) := by
  simp only [hostOps0_5]; after_results_simp; rfl

end Cert.Rope

end
-- ==== Proof.KernelAngles.lean ====
/-
  The table of angles the kernel's one region is entered with.

  Before the region the program runs its sixty-seven host operations on the argument arrays, in six stretches; the
  array the region's input window stages is their result.  Each stretch is read on its own, from arbitrary buffer
  contents: the buffers it computes hold the stated functions of the buffers it reads, and the buffers later
  stretches read that it does not write are kept.  Composed, the result is the angle table of the position ids, the
  wavelengths and the inverse frequencies, with the guarded lookup.
-/
import proofs.«123574_j67980742361241_2_alg».proof.Proof.Gen.KernelIdeal.Frame
import proofs.«123574_j67980742361241_2_alg».proof.Proof.Spec
import proofs.«123574_j67980742361241_2_alg».proof.Proof.SpecSteps
import proofs.«123574_j67980742361241_2_alg».proof.Proof.KernelAnglesS0
import proofs.«123574_j67980742361241_2_alg».proof.Proof.KernelAnglesS1
import proofs.«123574_j67980742361241_2_alg».proof.Proof.KernelAnglesS23
import proofs.«123574_j67980742361241_2_alg».proof.Proof.KernelAnglesS45

noncomputable section

namespace Cert.Rope

open Idealize.ShloMosaic Idealize.ShloMosaic.TcCoe Idealize.ShloMosaic.StableHlo Idealize.SL.Sem
open Cert.KernelIdeal Cert.KernelIdeal.Gen

variable {F : FTy → Type} [FloatOps F]

/-! ## The stretches composed -/

attribute [local irreducible] Host.reduce Host.gather in
/-- The host operations before the region, read at the array the input window stages: each operation's
    result buffer holds its function of its operands' buffers, and the composition is the angle table. -/
theorem angles_at_entry (m : (ℓ : Loc nD τ sig) → Buf (Elt F) ℓ) (c : Dev nD) :
    V m c main_v17
      = freqs (filled (m ((c : Thread nD τ).loc main_arg1))
          (starts (idx (m ((c : Thread nD τ).loc main_arg1)) (m ((c : Thread nD τ).loc main_arg3)))))
        (m ((c : Thread nD τ).loc main_arg2)) := by
  dsimp only [V]
  simp only [List.flatten_cons, List.flatten_nil, List.append_nil, StableHlo.after_append]
  rw [s5_v17, s4_v12, s4_arg2, s3_v11, s3_arg1, s3_arg2, s2_v10, s2_v6, s2_v9, s2_arg1, s2_arg2, s1_v9, s1_v3, s1_v6, s1_arg1,
    s1_arg2, s0_v3, s0_v6, s0_v7, s0_v8, s0_arg1, s0_arg2, idx_eq_of, lRow_eq_of]

end Cert.Rope

end
-- ==== Proof.KernelArrays.lean ====
/-
  From the blocks the grid points write back to the two output arrays.

  The one launch runs over four grid points t.  At point t the input window holds rows 2048·t … 2048·t + 2047
  of the angle table θ : [2, 8192, 64] (whole on the other two axes) and each output window the same rows of its
  array [2, 8192, 128].  The body doubles its block along the last axis — column j of the doubled block is column
  j mod 64 of the block — and stores the cosine of that to the first output and the sine to the second.  So the
  element point t writes at (b, r, j) of an output block is cos (resp. sin) of θ(b, 2048·t + r, j mod 64): block t
  of the ONE function (b, l, j) ↦ cos θ(b, l, j mod 64).  The four row blocks tile the array (row l lies in block
  l / 2048), hence after the run each output array is that function.
-/
import proofs.«123574_j67980742361241_2_alg».proof.Proof.Gen.KernelIdeal.Value
import proofs.«123574_j67980742361241_2_alg».proof.Proof.Spec
import Idealize.ShloMosaic.PureOps.Ideal

noncomputable section

namespace Cert.Rope.Blocks

open Idealize.ShloMosaic Idealize.ShloMosaic.TcCoe Idealize.SL.Sem
open Cert.KernelIdeal Cert.KernelIdeal.Gen Cert.KernelIdeal.Value
open Idealize.ShloMosaic.Pipeline (Dat)

variable (m : (ℓ : Loc nD τ sig) → Buf (Elt Ideal) ℓ)

/-- The offsets of a whole-block access, all zero. -/
theorem zero_offsets : (![0, 0, 0] : Fin 3 → Nat) = fun _ => 0 := funext fun a => by fin_cases a <;> rfl

/-- The block each window moves at grid point t is block (0, t, 0): decided over the four points. -/
theorem block_index : ∀ t : Fin cfg0.N,
    (win0_0.index t (0 : Fin 3) = 0 ∧ win0_0.index t (1 : Fin 3) = t.val ∧ win0_0.index t (2 : Fin 3) = 0)
    ∧ (win0_1.index t (0 : Fin 3) = 0 ∧ win0_1.index t (1 : Fin 3) = t.val ∧ win0_1.index t (2 : Fin 3) = 0)
    ∧ (win0_2.index t (0 : Fin 3) = 0 ∧ win0_2.index t (1 : Fin 3) = t.val ∧ win0_2.index t (2 : Fin 3) = 0) :=
  (by decide +kernel : ∀ t : Fin grid0.N, _)

/-! ## The cosine array -/

/-- Both operands of the doubling are the loaded block itself. -/
theorem cos_operand (P0 : Vec Ideal S2x2048x64 .f32) (n : Fin 2) : Cat1_0 P0 n = P0 := by
  match n with
  | ⟨0, _⟩ => exact shapeCast_self P0 _
  | ⟨1, _⟩ => exact shapeCast_self P0 _

/-- What the body leaves in the first output's block, element by element: the cosine of the input block at
    (b, r, j mod 64). -/
theorem cos_block (P0 : Vec Ideal S2x2048x64 .f32) (y : S2x2048x128.Idx) :
    out0_1 P0 y = Ideal.cos (P0 (ix1_0 y)) := by
  unfold out0_1
  rw [canon1_eq]
  show Ideal.cos ((Cat1_0 (View.ld P0 r0_0) (csel1_0 y)) (ix1_0 y)) = _
  rw [cos_operand, View.ld_unit_zero (S := S2x2048x64) zero_offsets]

/-- A window none of whose blocks overhangs its array writes back its whole block. -/
theorem cut_out1 (t : Fin cfg0.N) (X : Vec Ideal S2x2048x128 .f32) (y : S2x2048x128.Idx) :
    (cfg0.win 1).cut (grid0.coords t) X y = X y := rfl

/-- Block t of a function of the table read at (b, l, j mod 64), element by element — stated for ANY table T and
    any scalar function f, so that neither is looked into. -/
theorem read_out1 (f : EReal → EReal) (T : S2x8192x64.Idx → Elt Ideal .f32) (t : Fin cfg0.N) (y : S2x2048x128.Idx) :
    ((cfg0.win 1).blk t).view.read (Elt Ideal) (fun i => f (T (half i))) y
      = f (T (half (((cfg0.win 1).blk t).view.emb y))) := rfl

/-- Block t of the input array, element by element, for any contents T of the array. -/
theorem read_in0 (T : S2x8192x64.Idx → Elt Ideal .f32) (t : Fin cfg0.N) (x : S2x2048x64.Idx) :
    ((cfg0.win 0).blk t).view.read (Elt Ideal) T x = T (((cfg0.win 0).blk t).view.emb x) := rfl

/-- The input window's block at point t is block t of the angle table. -/
theorem iblk_eq (c : Dev nD) (t : Fin cfg0.N) :
    iblk m c 0 t = ((cfg0.win 0).blk t).view.read (Elt Ideal) (V m c main_v17) := rfl

/-- At point t the input block's element (b, r, j mod 64) sits at (b, 2048·t + r, j mod 64) of the angle table and
    the first output block's element (b, r, j) at (b, 2048·t + r, j) of its array: the first is the second's half. -/
theorem emb_half (t : Fin cfg0.N) (y : S2x2048x128.Idx) :
    ((cfg0.win 0).blk t).view.emb (ix1_0 y) = half (((cfg0.win 1).blk t).view.emb y) := by
  obtain ⟨⟨a0, a1, a2⟩, ⟨b0, b1, b2⟩, -⟩ := block_index t
  have hy0 : (y 0).val < 2 := (y 0).isLt
  have hy1 : (y 1).val < 2048 := (y 1).isLt
  have hy2 : (y 2).val < 128 := (y 2).isLt
  funext a; apply Fin.ext
  match a with
  | ⟨0, _⟩ =>
    show win0_0.index t (0 : Fin 3) * 2 + 1 * (y 0).val = win0_1.index t (0 : Fin 3) * 2 + 1 * (y 0).val
    omega
  | ⟨1, _⟩ =>
    show win0_0.index t (1 : Fin 3) * 2048 + 1 * (y 1).val = win0_1.index t (1 : Fin 3) * 2048 + 1 * (y 1).val
    omega
  | ⟨2, _⟩ =>
    show win0_0.index t (2 : Fin 3) * 64 + 1 * ((y 2).val % 64) = (win0_1.index t (2 : Fin 3) * 128 + 1 * (y 2).val) % 64
    omega

/-- What grid point t writes back to the first output is block t of (b, l, j) ↦ cos θ(b, l, j mod 64). -/
theorem cos_flushed (c : Dev nD) (t : Fin cfg0.N) :
    (dats (F := Ideal) m 0 c).flushed 1 t
      = ((cfg0.win 1).blk t).view.read (Elt Ideal) (fun i => Ideal.cos (V m c main_v17 (half i))) := by
  rw [flushed1]
  funext y
  refine (cut_out1 t _ y).trans ?_
  refine (cos_block _ y).trans ?_
  refine Eq.trans ?_ (read_out1 Ideal.cos (V m c main_v17) t y).symm
  refine congrArg Ideal.cos ?_
  rw [iblk_eq]
  refine (read_in0 (V m c main_v17) t (ix1_0 y)).trans ?_
  exact congrArg (V m c main_v17) (emb_half t y)

/-- An index of the first output array is in point t's block iff each coordinate is in the block's range on its axis. -/
theorem mem_cos_block (t : Fin cfg0.N) (i : S2x8192x128.Idx) :
    i ∈ ((cfg0.win 1).blk t).view.set ↔ ∀ a : Fin 3, win0_1.index t a * S2x2048x128.size a ≤ (i a).val ∧ (i a).val < win0_1.index t a * S2x2048x128.size a + S2x2048x128.size a := by
  show i ∈ ((View.whole main_v18_0).slice (win0_1.rect t)).set ↔ _
  rw [View.set_slice_whole, Rect.mem_set_unit]
  exact Iff.rfl

/-- The four row blocks tile the array: row l lies in the block of point l / 2048. -/
theorem cos_cover (i : S2x8192x128.Idx) :
    ∃ t : Fin cfg0.N, (cfg0.win 1).flush t = true ∧ i ∈ ((cfg0.win 1).blk t).view.set := by
  have h0 : (i 0).val < 2 := (i 0).isLt
  have h1 : (i 1).val < 8192 := (i 1).isLt
  have h2 : (i 2).val < 128 := (i 2).isLt
  obtain ⟨t, ht⟩ : ∃ t : Fin cfg0.N, t.val = (i 1).val / 2048 :=
    ⟨⟨(i 1).val / 2048, by have hN : grid0.N = 4 := N_0; show (i 1).val / 2048 < grid0.N; omega⟩, rfl⟩
  obtain ⟨-, ⟨b0, b1, b2⟩, -⟩ := block_index t
  refine ⟨t, flush0_1 t, ?_⟩
  rw [mem_cos_block]
  intro a
  match a with
  | ⟨0, _⟩ =>
    show win0_1.index t (0 : Fin 3) * 2 ≤ (i 0).val ∧ (i 0).val < win0_1.index t (0 : Fin 3) * 2 + 2
    omega
  | ⟨1, _⟩ =>
    show win0_1.index t (1 : Fin 3) * 2048 ≤ (i 1).val ∧ (i 1).val < win0_1.index t (1 : Fin 3) * 2048 + 2048
    omega
  | ⟨2, _⟩ =>
    show win0_1.index t (2 : Fin 3) * 128 ≤ (i 2).val ∧ (i 2).val < win0_1.index t (2 : Fin 3) * 128 + 128
    omega

/-- After the run the first output array holds, at (b, l, j), the cosine of the angle table at (b, l, j mod 64). -/
theorem _root_.Cert.Rope.cos_array (c : Dev nD) :
    (dats (F := Ideal) m 0 c).arrAt 1 cfg0.N = fun i => Ideal.cos (V m c main_v17 (half i)) :=
  (dats (F := Ideal) m 0 c).arrAt_eq_of_cover 1 (fun i => Ideal.cos (V m c main_v17 (half i)))
    (fun t _ => cos_flushed m c t) cos_cover

/-! ## The sine array -/

/-- Both operands of the doubling are the loaded block itself. -/
theorem sin_operand (P0 : Vec Ideal S2x2048x64 .f32) (n : Fin 2) : Cat2_0 P0 n = P0 := by
  match n with
  | ⟨0, _⟩ => exact shapeCast_self P0 _
  | ⟨1, _⟩ => exact shapeCast_self P0 _

/-- What the body leaves in the second output's block, element by element: the sine of the input block at
    (b, r, j mod 64). -/
theorem sin_block (P0 : Vec Ideal S2x2048x64 .f32) (y : S2x2048x128.Idx) :
    out0_2 P0 y = Ideal.sin (P0 (ix2_0 y)) := by
  unfold out0_2
  rw [canon2_eq]
  show Ideal.sin ((Cat2_0 (View.ld P0 r0_0) (csel2_0 y)) (ix2_0 y)) = _
  rw [sin_operand, View.ld_unit_zero (S := S2x2048x64) zero_offsets]

/-- A window none of whose blocks overhangs its array writes back its whole block. -/
theorem cut_out2 (t : Fin cfg0.N) (X : Vec Ideal S2x2048x128 .f32) (y : S2x2048x128.Idx) :
    (cfg0.win 2).cut (grid0.coords t) X y = X y := rfl

/-- Block t of a function of the table read at (b, l, j mod 64), element by element, for any table T and any
    scalar function f. -/
theorem read_out2 (f : EReal → EReal) (T : S2x8192x64.Idx → Elt Ideal .f32) (t : Fin cfg0.N) (y : S2x2048x128.Idx) :
    ((cfg0.win 2).blk t).view.read (Elt Ideal) (fun i => f (T (half i))) y
      = f (T (half (((cfg0.win 2).blk t).view.emb y))) := rfl

/-- At point t the input block's element (b, r, j mod 64) sits at (b, 2048·t + r, j mod 64) of the angle table and
    the second output block's element (b, r, j) at (b, 2048·t + r, j) of its array: the first is the second's half. -/
theorem emb_half2 (t : Fin cfg0.N) (y : S2x2048x128.Idx) :
    ((cfg0.win 0).blk t).view.emb (ix2_0 y) = half (((cfg0.win 2).blk t).view.emb y) := by
  obtain ⟨⟨a0, a1, a2⟩, -, ⟨b0, b1, b2⟩⟩ := block_index t
  have hy0 : (y 0).val < 2 := (y 0).isLt
  have hy1 : (y 1).val < 2048 := (y 1).isLt
  have hy2 : (y 2).val < 128 := (y 2).isLt
  funext a; apply Fin.ext
  match a with
  | ⟨0, _⟩ =>
    show win0_0.index t (0 : Fin 3) * 2 + 1 * (y 0).val = win0_2.index t (0 : Fin 3) * 2 + 1 * (y 0).val
    omega
  | ⟨1, _⟩ =>
    show win0_0.index t (1 : Fin 3) * 2048 + 1 * (y 1).val = win0_2.index t (1 : Fin 3) * 2048 + 1 * (y 1).val
    omega
  | ⟨2, _⟩ =>
    show win0_0.index t (2 : Fin 3) * 64 + 1 * ((y 2).val % 64) = (win0_2.index t (2 : Fin 3) * 128 + 1 * (y 2).val) % 64
    omega

/-- What grid point t writes back to the second output is block t of (b, l, j) ↦ sin θ(b, l, j mod 64). -/
theorem sin_flushed (c : Dev nD) (t : Fin cfg0.N) :
    (dats (F := Ideal) m 0 c).flushed 2 t
      = ((cfg0.win 2).blk t).view.read (Elt Ideal) (fun i => Ideal.sin (V m c main_v17 (half i))) := by
  rw [flushed2]
  funext y
  refine (cut_out2 t _ y).trans ?_
  refine (sin_block _ y).trans ?_
  refine Eq.trans ?_ (read_out2 Ideal.sin (V m c main_v17) t y).symm
  refine congrArg Ideal.sin ?_
  rw [iblk_eq]
  refine (read_in0 (V m c main_v17) t (ix2_0 y)).trans ?_
  exact congrArg (V m c main_v17) (emb_half2 t y)

/-- An index of the second output array is in point t's block iff each coordinate is in the block's range on its axis. -/
theorem mem_sin_block (t : Fin cfg0.N) (i : S2x8192x128.Idx) :
    i ∈ ((cfg0.win 2).blk t).view.set ↔ ∀ a : Fin 3, win0_2.index t a * S2x2048x128.size a ≤ (i a).val ∧ (i a).val < win0_2.index t a * S2x2048x128.size a + S2x2048x128.size a := by
  show i ∈ ((View.whole main_v18_1).slice (win0_2.rect t)).set ↔ _
  rw [View.set_slice_whole, Rect.mem_set_unit]
  exact Iff.rfl

/-- The four row blocks tile the array: row l lies in the block of point l / 2048. -/
theorem sin_cover (i : S2x8192x128.Idx) :
    ∃ t : Fin cfg0.N, (cfg0.win 2).flush t = true ∧ i ∈ ((cfg0.win 2).blk t).view.set := by
  have h0 : (i 0).val < 2 := (i 0).isLt
  have h1 : (i 1).val < 8192 := (i 1).isLt
  have h2 : (i 2).val < 128 := (i 2).isLt
  obtain ⟨t, ht⟩ : ∃ t : Fin cfg0.N, t.val = (i 1).val / 2048 :=
    ⟨⟨(i 1).val / 2048, by have hN : grid0.N = 4 := N_0; show (i 1).val / 2048 < grid0.N; omega⟩, rfl⟩
  obtain ⟨-, -, ⟨b0, b1, b2⟩⟩ := block_index t
  refine ⟨t, flush0_2 t, ?_⟩
  rw [mem_sin_block]
  intro a
  match a with
  | ⟨0, _⟩ =>
    show win0_2.index t (0 : Fin 3) * 2 ≤ (i 0).val ∧ (i 0).val < win0_2.index t (0 : Fin 3) * 2 + 2
    omega
  | ⟨1, _⟩ =>
    show win0_2.index t (1 : Fin 3) * 2048 ≤ (i 1).val ∧ (i 1).val < win0_2.index t (1 : Fin 3) * 2048 + 2048
    omega
  | ⟨2, _⟩ =>
    show win0_2.index t (2 : Fin 3) * 128 ≤ (i 2).val ∧ (i 2).val < win0_2.index t (2 : Fin 3) * 128 + 128
    omega

/-- After the run the second output array holds, at (b, l, j), the sine of the angle table at (b, l, j mod 64). -/
theorem _root_.Cert.Rope.sin_array (c : Dev nD) :
    (dats (F := Ideal) m 0 c).arrAt 2 cfg0.N = fun i => Ideal.sin (V m c main_v17 (half i)) :=
  (dats (F := Ideal) m 0 c).arrAt_eq_of_cover 2 (fun i => Ideal.sin (V m c main_v17 (half i)))
    (fun t _ => sin_flushed m c t) sin_cover

end Cert.Rope.Blocks

end
-- ==== Proof.RefRun.lean ====
/-
  The reference program's run, read back.

  The reference is a straight line of fifty-six tensor operations once the two functions it calls (the
  remainder with the divisor's sign, and the choice between that remainder and the plain position) are written
  out at their call sites, each over the buffers of that call.  Every weakly fair execution of it terminates,
  and leaves in each buffer the composition of the operations that wrote it, applied to the argument arrays.
-/
import proofs.«123574_j67980742361241_2_alg».proof.Proof.Gen.ReferenceIdeal
import Idealize.ShloMosaic.Lib.StableHlo.Run

noncomputable section

namespace Cert.Rope.Ref

open Idealize.ShloMosaic Idealize.ShloMosaic.TcCoe Idealize.ShloMosaic.StableHlo Idealize.SL.Sem
open Cert.ReferenceIdeal Cert.ReferenceIdeal.Gen

variable {F : FTy → Type} [FloatOps F]

/-- The program's operations in order, the two called functions' operations at their call sites. -/
abbrev ops : List (HloOp τ sig (Elt F)) :=
  [ StableHlo.nullary main_c (constantI S_ 32 2147483648#32),
    StableHlo.binary main_arg1 main_c main_v0 ((fun x v => Host.reduce IntOp.maxsi x v reducesTo_S2x8192_S_d0_1 h_S_) : (⟨S2x8192, .i32⟩ : BufTy).Contents (Elt F) → (⟨S_, .i32⟩ : BufTy).Contents (Elt F) → (⟨S_, .i32⟩ : BufTy).Contents (Elt F)),
    StableHlo.nullary main_c_0 (constantI S_ 32 1#32),
    StableHlo.binary main_v0 main_c_0 main_v1 (addi : (⟨S_, .i32⟩ : BufTy).Contents (Elt F) → (⟨S_, .i32⟩ : BufTy).Contents (Elt F) → (⟨S_, .i32⟩ : BufTy).Contents (Elt F)),
    StableHlo.unary main_arg3 main_v2 (fptosi 32 : (⟨S64, .f32⟩ : BufTy).Contents (Elt F) → (⟨S64, .i32⟩ : BufTy).Contents (Elt F)),
    StableHlo.nullary main_v3 (iotaInDim S8192 32 0),
    StableHlo.unary main_v2 main_v4 (broadcastInDim S64x1 ![0] bcast_S64_S64x1_0 : (⟨S64, .i32⟩ : BufTy).Contents (Elt F) → (⟨S64x1, .i32⟩ : BufTy).Contents (Elt F)),
    StableHlo.unary main_v1 main_v5 (broadcastInDim S64x1 ![] bcast_S_S64x1 : (⟨S_, .i32⟩ : BufTy).Contents (Elt F) → (⟨S64x1, .i32⟩ : BufTy).Contents (Elt F)),
    StableHlo.binary main_v4 main_v5 main_v6 (cmpi .sle : (⟨S64x1, .i32⟩ : BufTy).Contents (Elt F) → (⟨S64x1, .i32⟩ : BufTy).Contents (Elt F) → (⟨S64x1, .i1⟩ : BufTy).Contents (Elt F)),
    StableHlo.unary main_v3 main_v7 (broadcastInDim S1x8192 ![1] bcast_S8192_S1x8192_1 : (⟨S8192, .i32⟩ : BufTy).Contents (Elt F) → (⟨S1x8192, .i32⟩ : BufTy).Contents (Elt F)),
    StableHlo.unary main_v2 main_v8 (broadcastInDim S64x1 ![0] bcast_S64_S64x1_0 : (⟨S64, .i32⟩ : BufTy).Contents (Elt F) → (⟨S64x1, .i32⟩ : BufTy).Contents (Elt F)),
    StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S64x1, .i32⟩) (broadcastInDim S64x1 ![] bcast_S_S64x1),
    StableHlo.TRef.binary (.of main_v8 : StableHlo.TRef sig ⟨S64x1, .i32⟩) (.of main_call0_v0 : StableHlo.TRef sig ⟨S64x1, .i32⟩) (.of main_call0_v1 : StableHlo.TRef sig ⟨S64x1, .i1⟩) (cmpi .eq),
    StableHlo.TRef.nullary (.of main_call0_c_0 : StableHlo.TRef sig ⟨S_, .i32⟩) (constantI S_ 32 1#32),
    StableHlo.TRef.unary (.of main_call0_c_0 : StableHlo.TRef sig ⟨S_, .i32⟩) (.of main_call0_v2 : StableHlo.TRef sig ⟨S64x1, .i32⟩) (broadcastInDim S64x1 ![] bcast_S_S64x1),
    StableHlo.TRef.ternary (.of main_call0_v1 : StableHlo.TRef sig ⟨S64x1, .i1⟩) (.of main_call0_v2 : StableHlo.TRef sig ⟨S64x1, .i32⟩) (.of main_v8 : StableHlo.TRef sig ⟨S64x1, .i32⟩) (.of main_call0_v3 : StableHlo.TRef sig ⟨S64x1, .i32⟩) select,
    StableHlo.TRef.unary (.of main_v7 : StableHlo.TRef sig ⟨S1x8192, .i32⟩) (.of main_call0_v4 : StableHlo.TRef sig ⟨S64x8192, .i32⟩) (broadcastInDim S64x8192 ![0, 1] bcast_S1x8192_S64x8192_0_1),
    StableHlo.TRef.unary main_call0_call0.v0 (.of main_call0_v5 : StableHlo.TRef sig ⟨S64x8192, .i32⟩) (broadcastInDim S64x8192 ![0, 1] bcast_S64x1_S64x8192_0_1),
    StableHlo.TRef.binary (.of main_call0_v4 : StableHlo.TRef sig ⟨S64x8192, .i32⟩) (.of main_call0_v5 : StableHlo.TRef sig ⟨S64x8192, .i32⟩) (.of main_call0_v6 : StableHlo.TRef sig ⟨S64x8192, .i32⟩) Host.remsi,
    StableHlo.TRef.nullary (.of main_call0_c_1 : StableHlo.TRef sig ⟨S_, .i32⟩) (constantI S_ 32 0#32),
    StableHlo.TRef.unary (.of main_call0_c_1 : StableHlo.TRef sig ⟨S_, .i32⟩) (.of main_call0_v7 : StableHlo.TRef sig ⟨S64x8192, .i32⟩) (broadcastInDim S64x8192 ![] bcast_S_S64x8192),
    StableHlo.TRef.binary (.of main_call0_v6 : StableHlo.TRef sig ⟨S64x8192, .i32⟩) (.of main_call0_v7 : StableHlo.TRef sig ⟨S64x8192, .i32⟩) (.of main_call0_v8 : StableHlo.TRef sig ⟨S64x8192, .i1⟩) (cmpi .ne),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v9 : StableHlo.TRef sig ⟨S64x8192, .i32⟩) (broadcastInDim S64x8192 ![] bcast_S_S64x8192),
    StableHlo.TRef.binary (.of main_call0_v6 : StableHlo.TRef sig ⟨S64x8192, .i32⟩) (.of main_call0_v9 : StableHlo.TRef sig ⟨S64x8192, .i32⟩) (.of main_call0_v10 : StableHlo.TRef sig ⟨S64x8192, .i1⟩) (cmpi .slt),
    StableHlo.TRef.nullary (.of main_call0_c_3 : StableHlo.TRef sig ⟨S_, .i32⟩) (constantI S_ 32 0#32),
    StableHlo.TRef.unary (.of main_call0_c_3 : StableHlo.TRef sig ⟨S_, .i32⟩) (.of main_call0_v11 : StableHlo.TRef sig ⟨S64x1, .i32⟩) (broadcastInDim S64x1 ![] bcast_S_S64x1),
    StableHlo.TRef.binary main_call0_call0.v0 (.of main_call0_v11 : StableHlo.TRef sig ⟨S64x1, .i32⟩) (.of main_call0_v12 : StableHlo.TRef sig ⟨S64x1, .i1⟩) (cmpi .slt),
    StableHlo.TRef.unary (.of main_call0_v12 : StableHlo.TRef sig ⟨S64x1, .i1⟩) (.of main_call0_v13 : StableHlo.TRef sig ⟨S64x8192, .i1⟩) (broadcastInDim S64x8192 ![0, 1] bcast_S64x1_S64x8192_0_1),
    StableHlo.TRef.binary (.of main_call0_v10 : StableHlo.TRef sig ⟨S64x8192, .i1⟩) (.of main_call0_v13 : StableHlo.TRef sig ⟨S64x8192, .i1⟩) (.of main_call0_v14 : StableHlo.TRef sig ⟨S64x8192, .i1⟩) (cmpi .ne),
    StableHlo.TRef.binary (.of main_call0_v14 : StableHlo.TRef sig ⟨S64x8192, .i1⟩) (.of main_call0_v8 : StableHlo.TRef sig ⟨S64x8192, .i1⟩) (.of main_call0_v15 : StableHlo.TRef sig ⟨S64x8192, .i1⟩) andi,
    StableHlo.TRef.unary main_call0_call0.v0 (.of main_call0_v16 : StableHlo.TRef sig ⟨S64x8192, .i32⟩) (broadcastInDim S64x8192 ![0, 1] bcast_S64x1_S64x8192_0_1),
    StableHlo.TRef.binary (.of main_call0_v6 : StableHlo.TRef sig ⟨S64x8192, .i32⟩) (.of main_call0_v16 : StableHlo.TRef sig ⟨S64x8192, .i32⟩) (.of main_call0_v17 : StableHlo.TRef sig ⟨S64x8192, .i32⟩) addi,
    StableHlo.TRef.ternary (.of main_call0_v15 : StableHlo.TRef sig ⟨S64x8192, .i1⟩) (.of main_call0_v17 : StableHlo.TRef sig ⟨S64x8192, .i32⟩) (.of main_call0_v6 : StableHlo.TRef sig ⟨S64x8192, .i32⟩) (.of main_v9 : StableHlo.TRef sig ⟨S64x8192, .i32⟩) select,
    StableHlo.unary main_v3 main_v10 (broadcastInDim S1x8192 ![1] bcast_S8192_S1x8192_1 : (⟨S8192, .i32⟩ : BufTy).Contents (Elt F) → (⟨S1x8192, .i32⟩ : BufTy).Contents (Elt F)),
    StableHlo.TRef.unary (.of main_v6 : StableHlo.TRef sig ⟨S64x1, .i1⟩) (.of main_call1_v0 : StableHlo.TRef sig ⟨S64x8192, .i1⟩) (broadcastInDim S64x8192 ![0, 1] bcast_S64x1_S64x8192_0_1),
    StableHlo.TRef.unary (.of main_v10 : StableHlo.TRef sig ⟨S1x8192, .i32⟩) (.of main_call1_v1 : StableHlo.TRef sig ⟨S64x8192, .i32⟩) (broadcastInDim S64x8192 ![0, 1] bcast_S1x8192_S64x8192_0_1),
    StableHlo.TRef.ternary (.of main_call1_v0 : StableHlo.TRef sig ⟨S64x8192, .i1⟩) (.of main_v9 : StableHlo.TRef sig ⟨S64x8192, .i32⟩) (.of main_call1_v1 : StableHlo.TRef sig ⟨S64x8192, .i32⟩) (.of main_v11 : StableHlo.TRef sig ⟨S64x8192, .i32⟩) select,
    StableHlo.nullary main_c_1 (constantI S_ 32 0#32),
    StableHlo.unary main_c_1 main_v12 (broadcastInDim S64x8192 ![] bcast_S_S64x8192 : (⟨S_, .i32⟩ : BufTy).Contents (Elt F) → (⟨S64x8192, .i32⟩ : BufTy).Contents (Elt F)),
    StableHlo.binary main_v11 main_v12 main_v13 (cmpi .slt : (⟨S64x8192, .i32⟩ : BufTy).Contents (Elt F) → (⟨S64x8192, .i32⟩ : BufTy).Contents (Elt F) → (⟨S64x8192, .i1⟩ : BufTy).Contents (Elt F)),
    StableHlo.nullary main_c_2 (constantI S_ 32 8192#32),
    StableHlo.unary main_c_2 main_v14 (broadcastInDim S64x8192 ![] bcast_S_S64x8192 : (⟨S_, .i32⟩ : BufTy).Contents (Elt F) → (⟨S64x8192, .i32⟩ : BufTy).Contents (Elt F)),
    StableHlo.binary main_v11 main_v14 main_v15 (addi : (⟨S64x8192, .i32⟩ : BufTy).Contents (Elt F) → (⟨S64x8192, .i32⟩ : BufTy).Contents (Elt F) → (⟨S64x8192, .i32⟩ : BufTy).Contents (Elt F)),
    StableHlo.ternary main_v13 main_v15 main_v11 main_v16 (select : (⟨S64x8192, .i1⟩ : BufTy).Contents (Elt F) → (⟨S64x8192, .i32⟩ : BufTy).Contents (Elt F) → (⟨S64x8192, .i32⟩ : BufTy).Contents (Elt F) → (⟨S64x8192, .i32⟩ : BufTy).Contents (Elt F)),
    StableHlo.unary main_v16 main_v17 (broadcastInDim S64x8192x1 ![0, 1] bcast_S64x8192_S64x8192x1_0_1 : (⟨S64x8192, .i32⟩ : BufTy).Contents (Elt F) → (⟨S64x8192x1, .i32⟩ : BufTy).Contents (Elt F)),
    StableHlo.binary main_arg1 main_v17 main_v18 ((fun x i => Host.gather gather_S2x8192_S64x8192x1_S2x64x8192_0_1_n_n_1_2_21 x i) : (⟨S2x8192, .i32⟩ : BufTy).Contents (Elt F) → (⟨S64x8192x1, .i32⟩ : BufTy).Contents (Elt F) → (⟨S2x64x8192, .i32⟩ : BufTy).Contents (Elt F)),
    StableHlo.unary main_v18 main_v19 (sitofp .f32 : (⟨S2x64x8192, .i32⟩ : BufTy).Contents (Elt F) → (⟨S2x64x8192, .f32⟩ : BufTy).Contents (Elt F)),
    StableHlo.unary main_v19 main_v20 ((transpose S2x8192x64 [0, 2, 1] · transposes_S2x64x8192_S2x8192x64_0_2_1) : (⟨S2x64x8192, .f32⟩ : BufTy).Contents (Elt F) → (⟨S2x8192x64, .f32⟩ : BufTy).Contents (Elt F)),
    StableHlo.unary main_arg2 main_v21 (broadcastInDim S1x1x64 ![2] bcast_S64_S1x1x64_2 : (⟨S64, .f32⟩ : BufTy).Contents (Elt F) → (⟨S1x1x64, .f32⟩ : BufTy).Contents (Elt F)),
    StableHlo.unary main_v21 main_v22 (broadcastInDim S2x8192x64 ![0, 1, 2] bcast_S1x1x64_S2x8192x64_0_1_2 : (⟨S1x1x64, .f32⟩ : BufTy).Contents (Elt F) → (⟨S2x8192x64, .f32⟩ : BufTy).Contents (Elt F)),
    StableHlo.binary main_v20 main_v22 main_v23 (mulf : (⟨S2x8192x64, .f32⟩ : BufTy).Contents (Elt F) → (⟨S2x8192x64, .f32⟩ : BufTy).Contents (Elt F) → (⟨S2x8192x64, .f32⟩ : BufTy).Contents (Elt F)),
    StableHlo.binary main_v23 main_v23 main_v24 ((fun a b => concatenate S2x8192x128 2 [⟨S2x8192x64, a⟩, ⟨S2x8192x64, b⟩] concatenates_S2x8192x64_S2x8192x64_S2x8192x128_d2) : (⟨S2x8192x64, .f32⟩ : BufTy).Contents (Elt F) → (⟨S2x8192x64, .f32⟩ : BufTy).Contents (Elt F) → (⟨S2x8192x128, .f32⟩ : BufTy).Contents (Elt F)),
    StableHlo.unary main_v24 main_v25 (Host.cos : (⟨S2x8192x128, .f32⟩ : BufTy).Contents (Elt F) → (⟨S2x8192x128, .f32⟩ : BufTy).Contents (Elt F)),
    StableHlo.unary main_v24 main_v26 (Host.sin : (⟨S2x8192x128, .f32⟩ : BufTy).Contents (Elt F) → (⟨S2x8192x128, .f32⟩ : BufTy).Contents (Elt F)) ]

-- fifty-six steps re-associated: the rewriting under the chain recurses once per step
set_option maxRecDepth 4096 in
/-- The program is that straight line: the called functions unfolded at their calls, both sides are one
    chain of steps once sequencing is re-associated. -/
theorem main_eq (c : Dev nD) : main (F := F) c = seq ops := by
  simp only [main, fn_remainder.body, fn_where.body, fn_where_0.body, seq, bind_assoc, pure_bind]

/-- No buffer and no semaphore of the program is scoped: it is tensor values only. -/
theorem scopedRefs_eq : (Finset.univ.filter fun b : Ref sig .tc => b.isScoped) = ∅ := by decide
theorem scopedSems_eq : (Finset.univ.filter fun sm : SemLoc sig => sm.isScoped .tc) = ∅ := by decide

/-- Every operation touches buffers of the tensor core only. -/
theorem ops_sub : (ops : List (HloOp τ sig (Elt F))).Forall fun op => op.bufs ⊆ tcRefs τ sig :=
  ⟨StableHlo.nullary_bufs_sub .., StableHlo.binary_bufs_sub .., StableHlo.nullary_bufs_sub .., StableHlo.binary_bufs_sub .., StableHlo.unary_bufs_sub .., StableHlo.nullary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub .., StableHlo.unary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.unary_bufs_sub .., StableHlo.unary_bufs_sub ..⟩

/-- From any memory with zero counters every weakly fair execution terminates, and every buffer ends at the
    operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.Rope.Ref

end
-- ==== Proof.RefValue.lean ====
/-
  What the reference's two result buffers hold.

  Read off the run: the table of angles with the UNGUARDED lookup (`Cert.Rope.gath`), its 64 columns
  written twice side by side, and the cosine (first result) or sine (second result) of every entry.  Entry
  (b, l, j) of the doubled table is entry (b, l, j mod 64) of the angles.
-/
import proofs.«123574_j67980742361241_2_alg».proof.Proof.RefRun
import proofs.«123574_j67980742361241_2_alg».proof.Proof.Spec
import proofs.«123574_j67980742361241_2_alg».proof.Proof.SpecSteps
import Idealize.ShloMosaic.Lib.Pipeline.Value
import Idealize.ShloMosaic.PureOps.Ideal

noncomputable section

namespace Cert.Rope.Ref

open Idealize.ShloMosaic Idealize.ShloMosaic.TcCoe Idealize.ShloMosaic.StableHlo Idealize.SL.Sem
open Cert.ReferenceIdeal Cert.ReferenceIdeal.Gen

variable {F : FTy → Type} [FloatOps F]

/-- A table [2, 8192, 64] with its columns written twice side by side: [2, 8192, 128]. -/
def doubled (f : FVec F S2x8192x64 .f32) : FVec F S2x8192x128 .f32 :=
  concatenate S2x8192x128 2 [⟨S2x8192x64, f⟩, ⟨S2x8192x64, f⟩] concatenates_S2x8192x64_S2x8192x64_S2x8192x128_d2

/-- Column j of the doubled table is column j mod 64 of the table: j / 64 names the copy, and both copies
    are the same table. -/
theorem doubled_apply (f : FVec F S2x8192x64 .f32) (i : S2x8192x128.Idx) : doubled f i = f (Cert.Rope.half i) := by
  have hi2 : (i 2).val < 128 := (i 2).isLt
  show concatenate S2x8192x128 2 (List.ofFn fun n : Fin 2 => (⟨S2x8192x64, (fun _ : Fin 2 => f) n⟩ : (s : Shape) × (s.Idx → _))) _ i = _
  exact concatenate_ofFn_apply (t := S2x8192x128) (s₁ := S2x8192x64) (2 : Fin 3) (fun _ : Fin 2 => f) _ rfl 64 rfl i
    ⟨(i 2).val / 64, by omega⟩ rfl (Cert.Rope.half i) rfl
    (fun b hb => by match b with | ⟨0, _⟩ => rfl | ⟨1, _⟩ => rfl | ⟨2, _⟩ => exact absurd rfl hb)

/-! ## The operations in five stretches

The fifty-six operations, cut where the index computation's steps end: the prefix up to the row of positions, the
column of wavelengths and their comparison with the sequence length (1–11); the remainder with the divisor's sign
(12–35); the row of positions once more (36); the choice between the remainder and the position (37–39); and the
wrap, the lookup, the angles, their doubling, cosine and sine (40–56).  What a stretch leaves in a buffer is stated
from ARBITRARY contents W before it, so the stretches compose by substitution. -/

namespace Stages

/-- Operations 1–11. -/
def ops0 : List (HloOp τ sig (Elt F)) :=
  [ StableHlo.nullary main_c (constantI S_ 32 2147483648#32),
    StableHlo.binary main_arg1 main_c main_v0 ((fun x v => Host.reduce IntOp.maxsi x v reducesTo_S2x8192_S_d0_1 h_S_) : (⟨S2x8192, .i32⟩ : BufTy).Contents (Elt F) → (⟨S_, .i32⟩ : BufTy).Contents (Elt F) → (⟨S_, .i32⟩ : BufTy).Contents (Elt F)),
    StableHlo.nullary main_c_0 (constantI S_ 32 1#32),
    StableHlo.binary main_v0 main_c_0 main_v1 (addi : (⟨S_, .i32⟩ : BufTy).Contents (Elt F) → (⟨S_, .i32⟩ : BufTy).Contents (Elt F) → (⟨S_, .i32⟩ : BufTy).Contents (Elt F)),
    StableHlo.unary main_arg3 main_v2 (fptosi 32 : (⟨S64, .f32⟩ : BufTy).Contents (Elt F) → (⟨S64, .i32⟩ : BufTy).Contents (Elt F)),
    StableHlo.nullary main_v3 (iotaInDim S8192 32 0),
    StableHlo.unary main_v2 main_v4 (broadcastInDim S64x1 ![0] bcast_S64_S64x1_0 : (⟨S64, .i32⟩ : BufTy).Contents (Elt F) → (⟨S64x1, .i32⟩ : BufTy).Contents (Elt F)),
    StableHlo.unary main_v1 main_v5 (broadcastInDim S64x1 ![] bcast_S_S64x1 : (⟨S_, .i32⟩ : BufTy).Contents (Elt F) → (⟨S64x1, .i32⟩ : BufTy).Contents (Elt F)),
    StableHlo.binary main_v4 main_v5 main_v6 (cmpi .sle : (⟨S64x1, .i32⟩ : BufTy).Contents (Elt F) → (⟨S64x1, .i32⟩ : BufTy).Contents (Elt F) → (⟨S64x1, .i1⟩ : BufTy).Contents (Elt F)),
    StableHlo.unary main_v3 main_v7 (broadcastInDim S1x8192 ![1] bcast_S8192_S1x8192_1 : (⟨S8192, .i32⟩ : BufTy).Contents (Elt F) → (⟨S1x8192, .i32⟩ : BufTy).Contents (Elt F)),
    StableHlo.unary main_v2 main_v8 (broadcastInDim S64x1 ![0] bcast_S64_S64x1_0 : (⟨S64, .i32⟩ : BufTy).Contents (Elt F) → (⟨S64x1, .i32⟩ : BufTy).Contents (Elt F)) ]

/-- Operations 12–35: the remainder with the divisor's sign, over the buffers of its call. -/
def ops1 : List (HloOp τ sig (Elt F)) :=
  [ StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S64x1, .i32⟩) (broadcastInDim S64x1 ![] bcast_S_S64x1),
    StableHlo.TRef.binary (.of main_v8 : StableHlo.TRef sig ⟨S64x1, .i32⟩) (.of main_call0_v0 : StableHlo.TRef sig ⟨S64x1, .i32⟩) (.of main_call0_v1 : StableHlo.TRef sig ⟨S64x1, .i1⟩) (cmpi .eq),
    StableHlo.TRef.nullary (.of main_call0_c_0 : StableHlo.TRef sig ⟨S_, .i32⟩) (constantI S_ 32 1#32),
    StableHlo.TRef.unary (.of main_call0_c_0 : StableHlo.TRef sig ⟨S_, .i32⟩) (.of main_call0_v2 : StableHlo.TRef sig ⟨S64x1, .i32⟩) (broadcastInDim S64x1 ![] bcast_S_S64x1),
    StableHlo.TRef.ternary (.of main_call0_v1 : StableHlo.TRef sig ⟨S64x1, .i1⟩) (.of main_call0_v2 : StableHlo.TRef sig ⟨S64x1, .i32⟩) (.of main_v8 : StableHlo.TRef sig ⟨S64x1, .i32⟩) (.of main_call0_v3 : StableHlo.TRef sig ⟨S64x1, .i32⟩) select,
    StableHlo.TRef.unary (.of main_v7 : StableHlo.TRef sig ⟨S1x8192, .i32⟩) (.of main_call0_v4 : StableHlo.TRef sig ⟨S64x8192, .i32⟩) (broadcastInDim S64x8192 ![0, 1] bcast_S1x8192_S64x8192_0_1),
    StableHlo.TRef.unary main_call0_call0.v0 (.of main_call0_v5 : StableHlo.TRef sig ⟨S64x8192, .i32⟩) (broadcastInDim S64x8192 ![0, 1] bcast_S64x1_S64x8192_0_1),
    StableHlo.TRef.binary (.of main_call0_v4 : StableHlo.TRef sig ⟨S64x8192, .i32⟩) (.of main_call0_v5 : StableHlo.TRef sig ⟨S64x8192, .i32⟩) (.of main_call0_v6 : StableHlo.TRef sig ⟨S64x8192, .i32⟩) Host.remsi,
    StableHlo.TRef.nullary (.of main_call0_c_1 : StableHlo.TRef sig ⟨S_, .i32⟩) (constantI S_ 32 0#32),
    StableHlo.TRef.unary (.of main_call0_c_1 : StableHlo.TRef sig ⟨S_, .i32⟩) (.of main_call0_v7 : StableHlo.TRef sig ⟨S64x8192, .i32⟩) (broadcastInDim S64x8192 ![] bcast_S_S64x8192),
    StableHlo.TRef.binary (.of main_call0_v6 : StableHlo.TRef sig ⟨S64x8192, .i32⟩) (.of main_call0_v7 : StableHlo.TRef sig ⟨S64x8192, .i32⟩) (.of main_call0_v8 : StableHlo.TRef sig ⟨S64x8192, .i1⟩) (cmpi .ne),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v9 : StableHlo.TRef sig ⟨S64x8192, .i32⟩) (broadcastInDim S64x8192 ![] bcast_S_S64x8192),
    StableHlo.TRef.binary (.of main_call0_v6 : StableHlo.TRef sig ⟨S64x8192, .i32⟩) (.of main_call0_v9 : StableHlo.TRef sig ⟨S64x8192, .i32⟩) (.of main_call0_v10 : StableHlo.TRef sig ⟨S64x8192, .i1⟩) (cmpi .slt),
    StableHlo.TRef.nullary (.of main_call0_c_3 : StableHlo.TRef sig ⟨S_, .i32⟩) (constantI S_ 32 0#32),
    StableHlo.TRef.unary (.of main_call0_c_3 : StableHlo.TRef sig ⟨S_, .i32⟩) (.of main_call0_v11 : StableHlo.TRef sig ⟨S64x1, .i32⟩) (broadcastInDim S64x1 ![] bcast_S_S64x1),
    StableHlo.TRef.binary main_call0_call0.v0 (.of main_call0_v11 : StableHlo.TRef sig ⟨S64x1, .i32⟩) (.of main_call0_v12 : StableHlo.TRef sig ⟨S64x1, .i1⟩) (cmpi .slt),
    StableHlo.TRef.unary (.of main_call0_v12 : StableHlo.TRef sig ⟨S64x1, .i1⟩) (.of main_call0_v13 : StableHlo.TRef sig ⟨S64x8192, .i1⟩) (broadcastInDim S64x8192 ![0, 1] bcast_S64x1_S64x8192_0_1),
    StableHlo.TRef.binary (.of main_call0_v10 : StableHlo.TRef sig ⟨S64x8192, .i1⟩) (.of main_call0_v13 : StableHlo.TRef sig ⟨S64x8192, .i1⟩) (.of main_call0_v14 : StableHlo.TRef sig ⟨S64x8192, .i1⟩) (cmpi .ne),
    StableHlo.TRef.binary (.of main_call0_v14 : StableHlo.TRef sig ⟨S64x8192, .i1⟩) (.of main_call0_v8 : StableHlo.TRef sig ⟨S64x8192, .i1⟩) (.of main_call0_v15 : StableHlo.TRef sig ⟨S64x8192, .i1⟩) andi,
    StableHlo.TRef.unary main_call0_call0.v0 (.of main_call0_v16 : StableHlo.TRef sig ⟨S64x8192, .i32⟩) (broadcastInDim S64x8192 ![0, 1] bcast_S64x1_S64x8192_0_1),
    StableHlo.TRef.binary (.of main_call0_v6 : StableHlo.TRef sig ⟨S64x8192, .i32⟩) (.of main_call0_v16 : StableHlo.TRef sig ⟨S64x8192, .i32⟩) (.of main_call0_v17 : StableHlo.TRef sig ⟨S64x8192, .i32⟩) addi,
    StableHlo.TRef.ternary (.of main_call0_v15 : StableHlo.TRef sig ⟨S64x8192, .i1⟩) (.of main_call0_v17 : StableHlo.TRef sig ⟨S64x8192, .i32⟩) (.of main_call0_v6 : StableHlo.TRef sig ⟨S64x8192, .i32⟩) (.of main_v9 : StableHlo.TRef sig ⟨S64x8192, .i32⟩) select ]

/-- Operation 36. -/
def ops2 : List (HloOp τ sig (Elt F)) :=
  [ StableHlo.unary main_v3 main_v10 (broadcastInDim S1x8192 ![1] bcast_S8192_S1x8192_1 : (⟨S8192, .i32⟩ : BufTy).Contents (Elt F) → (⟨S1x8192, .i32⟩ : BufTy).Contents (Elt F)) ]

/-- Operations 37–39: the choice, over the buffers of its call. -/
def ops3 : List (HloOp τ sig (Elt F)) :=
  [ StableHlo.TRef.unary (.of main_v6 : StableHlo.TRef sig ⟨S64x1, .i1⟩) (.of main_call1_v0 : StableHlo.TRef sig ⟨S64x8192, .i1⟩) (broadcastInDim S64x8192 ![0, 1] bcast_S64x1_S64x8192_0_1),
    StableHlo.TRef.unary (.of main_v10 : StableHlo.TRef sig ⟨S1x8192, .i32⟩) (.of main_call1_v1 : StableHlo.TRef sig ⟨S64x8192, .i32⟩) (broadcastInDim S64x8192 ![0, 1] bcast_S1x8192_S64x8192_0_1),
    StableHlo.TRef.ternary (.of main_call1_v0 : StableHlo.TRef sig ⟨S64x8192, .i1⟩) (.of main_v9 : StableHlo.TRef sig ⟨S64x8192, .i32⟩) (.of main_call1_v1 : StableHlo.TRef sig ⟨S64x8192, .i32⟩) (.of main_v11 : StableHlo.TRef sig ⟨S64x8192, .i32⟩) select ]

/-- Operations 40–56. -/
def ops4 : List (HloOp τ sig (Elt F)) :=
  [ StableHlo.nullary main_c_1 (constantI S_ 32 0#32),
    StableHlo.unary main_c_1 main_v12 (broadcastInDim S64x8192 ![] bcast_S_S64x8192 : (⟨S_, .i32⟩ : BufTy).Contents (Elt F) → (⟨S64x8192, .i32⟩ : BufTy).Contents (Elt F)),
    StableHlo.binary main_v11 main_v12 main_v13 (cmpi .slt : (⟨S64x8192, .i32⟩ : BufTy).Contents (Elt F) → (⟨S64x8192, .i32⟩ : BufTy).Contents (Elt F) → (⟨S64x8192, .i1⟩ : BufTy).Contents (Elt F)),
    StableHlo.nullary main_c_2 (constantI S_ 32 8192#32),
    StableHlo.unary main_c_2 main_v14 (broadcastInDim S64x8192 ![] bcast_S_S64x8192 : (⟨S_, .i32⟩ : BufTy).Contents (Elt F) → (⟨S64x8192, .i32⟩ : BufTy).Contents (Elt F)),
    StableHlo.binary main_v11 main_v14 main_v15 (addi : (⟨S64x8192, .i32⟩ : BufTy).Contents (Elt F) → (⟨S64x8192, .i32⟩ : BufTy).Contents (Elt F) → (⟨S64x8192, .i32⟩ : BufTy).Contents (Elt F)),
    StableHlo.ternary main_v13 main_v15 main_v11 main_v16 (select : (⟨S64x8192, .i1⟩ : BufTy).Contents (Elt F) → (⟨S64x8192, .i32⟩ : BufTy).Contents (Elt F) → (⟨S64x8192, .i32⟩ : BufTy).Contents (Elt F) → (⟨S64x8192, .i32⟩ : BufTy).Contents (Elt F)),
    StableHlo.unary main_v16 main_v17 (broadcastInDim S64x8192x1 ![0, 1] bcast_S64x8192_S64x8192x1_0_1 : (⟨S64x8192, .i32⟩ : BufTy).Contents (Elt F) → (⟨S64x8192x1, .i32⟩ : BufTy).Contents (Elt F)),
    StableHlo.binary main_arg1 main_v17 main_v18 ((fun x i => Host.gather gather_S2x8192_S64x8192x1_S2x64x8192_0_1_n_n_1_2_21 x i) : (⟨S2x8192, .i32⟩ : BufTy).Contents (Elt F) → (⟨S64x8192x1, .i32⟩ : BufTy).Contents (Elt F) → (⟨S2x64x8192, .i32⟩ : BufTy).Contents (Elt F)),
    StableHlo.unary main_v18 main_v19 (sitofp .f32 : (⟨S2x64x8192, .i32⟩ : BufTy).Contents (Elt F) → (⟨S2x64x8192, .f32⟩ : BufTy).Contents (Elt F)),
    StableHlo.unary main_v19 main_v20 ((transpose S2x8192x64 [0, 2, 1] · transposes_S2x64x8192_S2x8192x64_0_2_1) : (⟨S2x64x8192, .f32⟩ : BufTy).Contents (Elt F) → (⟨S2x8192x64, .f32⟩ : BufTy).Contents (Elt F)),
    StableHlo.unary main_arg2 main_v21 (broadcastInDim S1x1x64 ![2] bcast_S64_S1x1x64_2 : (⟨S64, .f32⟩ : BufTy).Contents (Elt F) → (⟨S1x1x64, .f32⟩ : BufTy).Contents (Elt F)),
    StableHlo.unary main_v21 main_v22 (broadcastInDim S2x8192x64 ![0, 1, 2] bcast_S1x1x64_S2x8192x64_0_1_2 : (⟨S1x1x64, .f32⟩ : BufTy).Contents (Elt F) → (⟨S2x8192x64, .f32⟩ : BufTy).Contents (Elt F)),
    StableHlo.binary main_v20 main_v22 main_v23 (mulf : (⟨S2x8192x64, .f32⟩ : BufTy).Contents (Elt F) → (⟨S2x8192x64, .f32⟩ : BufTy).Contents (Elt F) → (⟨S2x8192x64, .f32⟩ : BufTy).Contents (Elt F)),
    StableHlo.binary main_v23 main_v23 main_v24 ((fun a b => concatenate S2x8192x128 2 [⟨S2x8192x64, a⟩, ⟨S2x8192x64, b⟩] concatenates_S2x8192x64_S2x8192x64_S2x8192x128_d2) : (⟨S2x8192x64, .f32⟩ : BufTy).Contents (Elt F) → (⟨S2x8192x64, .f32⟩ : BufTy).Contents (Elt F) → (⟨S2x8192x128, .f32⟩ : BufTy).Contents (Elt F)),
    StableHlo.unary main_v24 main_v25 (Host.cos : (⟨S2x8192x128, .f32⟩ : BufTy).Contents (Elt F) → (⟨S2x8192x128, .f32⟩ : BufTy).Contents (Elt F)),
    StableHlo.unary main_v24 main_v26 (Host.sin : (⟨S2x8192x128, .f32⟩ : BufTy).Contents (Elt F) → (⟨S2x8192x128, .f32⟩ : BufTy).Contents (Elt F)) ]

/-- The program's operations are the five stretches in order. -/
theorem ops_eq : (ops : List (HloOp τ sig (Elt F))) = ops0 ++ (ops1 ++ (ops2 ++ (ops3 ++ ops4))) := rfl

variable (W : Valuation τ sig (Elt F))

/-! ### Operations 1–11 -/

attribute [local irreducible] Host.reduce Host.gather in
theorem s0_v3 : after ops0 W (main_v3 : DevRef τ sig) = iotaInDim S8192 32 0 := by
  simp only [ops0]; after_results_simp
attribute [local irreducible] Host.reduce Host.gather in
theorem s0_v6 : after ops0 W (main_v6 : DevRef τ sig) = fits (W (main_arg1 : DevRef τ sig)) (W (main_arg3 : DevRef τ sig)) := by
  simp only [ops0]; after_results_simp
  unfold Cert.Rope.fits Cert.Rope.wCol Cert.Rope.wInt Cert.Rope.seqLen
  rfl
attribute [local irreducible] Host.reduce Host.gather in
theorem s0_v7 : after ops0 W (main_v7 : DevRef τ sig) = lRow := by
  simp only [ops0]; after_results_simp
  unfold Cert.Rope.lRow
  rfl
attribute [local irreducible] Host.reduce Host.gather in
theorem s0_v8 : after ops0 W (main_v8 : DevRef τ sig) = wCol (W (main_arg3 : DevRef τ sig)) := by
  simp only [ops0]; after_results_simp
  unfold Cert.Rope.wCol Cert.Rope.wInt
  rfl
theorem s0_arg0 : after ops0 W (main_arg0 : DevRef τ sig) = W (main_arg0 : DevRef τ sig) := by
  simp only [ops0]; after_results_simp
theorem s0_arg1 : after ops0 W (main_arg1 : DevRef τ sig) = W (main_arg1 : DevRef τ sig) := by
  simp only [ops0]; after_results_simp
theorem s0_arg2 : after ops0 W (main_arg2 : DevRef τ sig) = W (main_arg2 : DevRef τ sig) := by
  simp only [ops0]; after_results_simp
theorem s0_arg3 : after ops0 W (main_arg3 : DevRef τ sig) = W (main_arg3 : DevRef τ sig) := by
  simp only [ops0]; after_results_simp

/-! ### Operations 12–35 -/

attribute [local irreducible] Host.reduce Host.gather in
theorem s1_v9 : after ops1 W (main_v9 : DevRef τ sig)
    = floorModOf (W (main_v7 : DevRef τ sig)) (W (main_v8 : DevRef τ sig)) := by
  simp only [ops1]; after_results_simp
  simp only [TRef.toBuf, TRef.ofBuf, cast_cast, cast_eq]
  unfold Cert.Rope.floorModOf Cert.Rope.truncRemOf Cert.Rope.divisorOf
  rfl
theorem s1_v3 : after ops1 W (main_v3 : DevRef τ sig) = W (main_v3 : DevRef τ sig) := by
  simp only [ops1]; after_results_simp
theorem s1_v6 : after ops1 W (main_v6 : DevRef τ sig) = W (main_v6 : DevRef τ sig) := by
  simp only [ops1]; after_results_simp
theorem s1_arg0 : after ops1 W (main_arg0 : DevRef τ sig) = W (main_arg0 : DevRef τ sig) := by
  simp only [ops1]; after_results_simp
theorem s1_arg1 : after ops1 W (main_arg1 : DevRef τ sig) = W (main_arg1 : DevRef τ sig) := by
  simp only [ops1]; after_results_simp
theorem s1_arg2 : after ops1 W (main_arg2 : DevRef τ sig) = W (main_arg2 : DevRef τ sig) := by
  simp only [ops1]; after_results_simp
theorem s1_arg3 : after ops1 W (main_arg3 : DevRef τ sig) = W (main_arg3 : DevRef τ sig) := by
  simp only [ops1]; after_results_simp

/-! ### Operation 36 -/

theorem s2_v10 : after ops2 W (main_v10 : DevRef τ sig) = rowOf (W (main_v3 : DevRef τ sig)) := by
  simp only [ops2]; after_results_simp
  unfold Cert.Rope.rowOf
  rfl
theorem s2_v6 : after ops2 W (main_v6 : DevRef τ sig) = W (main_v6 : DevRef τ sig) := by
  simp only [ops2]; after_results_simp
theorem s2_v9 : after ops2 W (main_v9 : DevRef τ sig) = W (main_v9 : DevRef τ sig) := by
  simp only [ops2]; after_results_simp
theorem s2_arg0 : after ops2 W (main_arg0 : DevRef τ sig) = W (main_arg0 : DevRef τ sig) := by
  simp only [ops2]; after_results_simp
theorem s2_arg1 : after ops2 W (main_arg1 : DevRef τ sig) = W (main_arg1 : DevRef τ sig) := by
  simp only [ops2]; after_results_simp
theorem s2_arg2 : after ops2 W (main_arg2 : DevRef τ sig) = W (main_arg2 : DevRef τ sig) := by
  simp only [ops2]; after_results_simp
theorem s2_arg3 : after ops2 W (main_arg3 : DevRef τ sig) = W (main_arg3 : DevRef τ sig) := by
  simp only [ops2]; after_results_simp

/-! ### Operations 37–39 -/

theorem s3_v11 : after ops3 W (main_v11 : DevRef τ sig)
    = idxOf (W (main_v6 : DevRef τ sig)) (W (main_v9 : DevRef τ sig)) (W (main_v10 : DevRef τ sig)) := by
  simp only [ops3]; after_results_simp
  simp only [TRef.toBuf, TRef.ofBuf, cast_cast, cast_eq]
  unfold Cert.Rope.idxOf
  rfl
theorem s3_arg0 : after ops3 W (main_arg0 : DevRef τ sig) = W (main_arg0 : DevRef τ sig) := by
  simp only [ops3]; after_results_simp
theorem s3_arg1 : after ops3 W (main_arg1 : DevRef τ sig) = W (main_arg1 : DevRef τ sig) := by
  simp only [ops3]; after_results_simp
theorem s3_arg2 : after ops3 W (main_arg2 : DevRef τ sig) = W (main_arg2 : DevRef τ sig) := by
  simp only [ops3]; after_results_simp
theorem s3_arg3 : after ops3 W (main_arg3 : DevRef τ sig) = W (main_arg3 : DevRef τ sig) := by
  simp only [ops3]; after_results_simp

/-! ### Operations 40–56 -/

attribute [local irreducible] Host.reduce Host.gather in
theorem s4_v25 : after ops4 W (main_v25 : DevRef τ sig)
    = Host.cos (doubled (freqs (gath (W (main_arg1 : DevRef τ sig)) (starts (W (main_v11 : DevRef τ sig)))) (W (main_arg2 : DevRef τ sig)))) := by
  simp only [ops4]; after_results_simp
  unfold doubled Cert.Rope.freqs Cert.Rope.gath Cert.Rope.starts Cert.Rope.wrap
  rfl
attribute [local irreducible] Host.reduce Host.gather in
theorem s4_v26 : after ops4 W (main_v26 : DevRef τ sig)
    = Host.sin (doubled (freqs (gath (W (main_arg1 : DevRef τ sig)) (starts (W (main_v11 : DevRef τ sig)))) (W (main_arg2 : DevRef τ sig)))) := by
  simp only [ops4]; after_results_simp
  unfold doubled Cert.Rope.freqs Cert.Rope.gath Cert.Rope.starts Cert.Rope.wrap
  rfl
theorem s4_arg0 : after ops4 W (main_arg0 : DevRef τ sig) = W (main_arg0 : DevRef τ sig) := by
  simp only [ops4]; after_results_simp
theorem s4_arg1 : after ops4 W (main_arg1 : DevRef τ sig) = W (main_arg1 : DevRef τ sig) := by
  simp only [ops4]; after_results_simp
theorem s4_arg2 : after ops4 W (main_arg2 : DevRef τ sig) = W (main_arg2 : DevRef τ sig) := by
  simp only [ops4]; after_results_simp
theorem s4_arg3 : after ops4 W (main_arg3 : DevRef τ sig) = W (main_arg3 : DevRef τ sig) := by
  simp only [ops4]; after_results_simp

end Stages

/-! ## The two result buffers and the arguments, after all fifty-six operations -/

open Stages in
/-- The first result buffer after the operations: the cosine of the doubled angle table. -/
theorem cos_buffer (V : Valuation τ sig (Elt F)) :
    after ops V (main_v25 : DevRef τ sig) = Host.cos (doubled (freqs (gath (V (main_arg1 : DevRef τ sig)) (starts (idx (V (main_arg1 : DevRef τ sig)) (V (main_arg3 : DevRef τ sig))))) (V (main_arg2 : DevRef τ sig)))) := by
  rw [ops_eq, after_append, after_append, after_append, after_append]
  rw [s4_v25, s3_v11, s3_arg1, s3_arg2, s2_v10, s2_v6, s2_v9, s2_arg1, s2_arg2, s1_v9, s1_v3, s1_v6, s1_arg1, s1_arg2,
    s0_v3, s0_v6, s0_v7, s0_v8, s0_arg1, s0_arg2]
  rw [idx_eq_of, lRow_eq_of]

open Stages in
/-- The second result buffer after the operations: the sine of the doubled angle table. -/
theorem sin_buffer (V : Valuation τ sig (Elt F)) :
    after ops V (main_v26 : DevRef τ sig) = Host.sin (doubled (freqs (gath (V (main_arg1 : DevRef τ sig)) (starts (idx (V (main_arg1 : DevRef τ sig)) (V (main_arg3 : DevRef τ sig))))) (V (main_arg2 : DevRef τ sig)))) := by
  rw [ops_eq, after_append, after_append, after_append, after_append]
  rw [s4_v26, s3_v11, s3_arg1, s3_arg2, s2_v10, s2_v6, s2_v9, s2_arg1, s2_arg2, s1_v9, s1_v3, s1_v6, s1_arg1, s1_arg2,
    s0_v3, s0_v6, s0_v7, s0_v8, s0_arg1, s0_arg2]
  rw [idx_eq_of, lRow_eq_of]

open Stages in
/-- No operation writes an argument array. -/
theorem arg0_kept (V : Valuation τ sig (Elt F)) : after ops V (main_arg0 : DevRef τ sig) = V (main_arg0 : DevRef τ sig) := by
  rw [ops_eq, after_append, after_append, after_append, after_append, s4_arg0, s3_arg0, s2_arg0, s1_arg0, s0_arg0]
open Stages in
theorem arg1_kept (V : Valuation τ sig (Elt F)) : after ops V (main_arg1 : DevRef τ sig) = V (main_arg1 : DevRef τ sig) := by
  rw [ops_eq, after_append, after_append, after_append, after_append, s4_arg1, s3_arg1, s2_arg1, s1_arg1, s0_arg1]
open Stages in
theorem arg2_kept (V : Valuation τ sig (Elt F)) : after ops V (main_arg2 : DevRef τ sig) = V (main_arg2 : DevRef τ sig) := by
  rw [ops_eq, after_append, after_append, after_append, after_append, s4_arg2, s3_arg2, s2_arg2, s1_arg2, s0_arg2]
open Stages in
theorem arg3_kept (V : Valuation τ sig (Elt F)) : after ops V (main_arg3 : DevRef τ sig) = V (main_arg3 : DevRef τ sig) := by
  rw [ops_eq, after_append, after_append, after_append, after_append, s4_arg3, s3_arg3, s2_arg3, s1_arg3, s0_arg3]

/-! ## At the extended reals, entry by entry -/

/-- The first result, entry by entry: the cosine of the angle at (b, l, j mod 64). -/
theorem cos_result (V : Valuation τ sig (Elt Ideal)) :
    after ops V (main_v25 : DevRef τ sig)
      = fun i => Ideal.cos ((Cert.Rope.freqs (F := Ideal) (Cert.Rope.gath (V (main_arg1 : DevRef τ sig)) (Cert.Rope.starts (Cert.Rope.idx (F := Ideal) (V (main_arg1 : DevRef τ sig)) (V (main_arg3 : DevRef τ sig))))) (V (main_arg2 : DevRef τ sig))) (Cert.Rope.half i)) := by
  rw [cos_buffer (F := Ideal)]
  funext i
  show Ideal.cos (doubled (F := Ideal) _ i) = _
  rw [doubled_apply]

/-- The second result, entry by entry: the sine of the angle at (b, l, j mod 64). -/
theorem sin_result (V : Valuation τ sig (Elt Ideal)) :
    after ops V (main_v26 : DevRef τ sig)
      = fun i => Ideal.sin ((Cert.Rope.freqs (F := Ideal) (Cert.Rope.gath (V (main_arg1 : DevRef τ sig)) (Cert.Rope.starts (Cert.Rope.idx (F := Ideal) (V (main_arg1 : DevRef τ sig)) (V (main_arg3 : DevRef τ sig))))) (V (main_arg2 : DevRef τ sig))) (Cert.Rope.half i)) := by
  rw [sin_buffer (F := Ideal)]
  funext i
  show Ideal.sin (doubled (F := Ideal) _ i) = _
  rw [doubled_apply]

end Cert.Rope.Ref

end
-- ==== Proof.lean ====
/-
  Resonance rotary embedding: the cosines and sines of position × inverse-frequency angles, each frequency
  reading its position through a wraparound index.

  Both programs first build, on the host, a table of angles freqs(b, l, d) = float(pos(b, n(d, l))) · inv(d):
  with w(d) the wavelength truncated to an integer and s = max(pos) + 1, the index n(d, l) is l mod w(d)
  (the remainder with the divisor's sign, a zero divisor replaced by 1) when w(d) ≤ s, and l otherwise, a
  negative index wrapped once by the row length 8192.  The results are cos and sin of the table with its 64
  columns written twice: entry (b, l, j) is cos / sin of freqs(b, l, j mod 64).

  The reference looks the position up at the wrapped index unconditionally (an index outside the row is
  clamped into it) and takes the cosines and sines of the whole doubled table at once.  The kernel program
  replaces the looked-up position by the smallest integer wherever the wrapped index lies outside 0 … 8191,
  and computes the doubled table, cosines and sines in one region, four blocks of 2048 positions each.

  The two differ exactly where a wrapped index leaves the row, which needs a negative wavelength; the
  precondition asks every wavelength to be positive.  Then the divisor is at least 1, the remainder of
  0 ≤ l ≤ 8191 lies in 0 … l, no sign correction and no wrap applies, every index lies in the row, and the
  kernel's guard never binds (`Cert.Rope.filled_eq_gath`, from `Cert.Rope.wavelengths_pos`).

  Modules: Spec / SpecSteps (the index computation, step by step), InRowWord / InRow / InRowPre (the indices lie
  in the row; the precondition read entry by entry), KernelAngles over KernelAnglesS0 / S1 / S23 / S45 (the host
  operations before the region, stretch by stretch, compute the guarded angle table), KernelArrays (the four blocks cover the two output arrays: cos and sin of
  the entry table at (b, l, j mod 64)), RefRun / RefValue (the reference's run and its two results), and this
  assembly behind the witnesses of the programs' stated side conditions.
-/
import proofs.«123574_j67980742361241_2_alg».proof.Defs
import proofs.«123574_j67980742361241_2_alg».proof.Proof.Gen.Kernel
import proofs.«123574_j67980742361241_2_alg».proof.Proof.Gen.Kernel.Skeleton
import proofs.«123574_j67980742361241_2_alg».proof.Proof.Gen.Kernel.Launch
import proofs.«123574_j67980742361241_2_alg».proof.Proof.Gen.Kernel.Points
import proofs.«123574_j67980742361241_2_alg».proof.Proof.Gen.Kernel.Frame
import proofs.«123574_j67980742361241_2_alg».proof.Proof.Gen.KernelIdeal
import proofs.«123574_j67980742361241_2_alg».proof.Proof.Gen.KernelIdeal.Skeleton
import proofs.«123574_j67980742361241_2_alg».proof.Proof.Gen.KernelIdeal.Launch
import proofs.«123574_j67980742361241_2_alg».proof.Proof.Gen.KernelIdeal.Points
import proofs.«123574_j67980742361241_2_alg».proof.Proof.Gen.KernelIdeal.Frame
import proofs.«123574_j67980742361241_2_alg».proof.Proof.Gen.KernelIdeal.Value
import proofs.«123574_j67980742361241_2_alg».proof.Proof.Gen.ReferenceIdeal
import proofs.«123574_j67980742361241_2_alg».proof.Proof.Gen.Pre_finite_inputs
import proofs.«123574_j67980742361241_2_alg».proof.Proof.Spec
import proofs.«123574_j67980742361241_2_alg».proof.Proof.InRow
import proofs.«123574_j67980742361241_2_alg».proof.Proof.InRowPre
import proofs.«123574_j67980742361241_2_alg».proof.Proof.KernelAngles
import proofs.«123574_j67980742361241_2_alg».proof.Proof.KernelArrays
import proofs.«123574_j67980742361241_2_alg».proof.Proof.RefRun
import proofs.«123574_j67980742361241_2_alg».proof.Proof.RefValue
import Idealize.ShloMosaic.Adequacy
import Idealize.ShloMosaic.Init
import Idealize.ShloMosaic.PureOps.Ideal

noncomputable section

namespace Cert.Proof

open Idealize.ShloMosaic Idealize.ShloMosaic.TcCoe Idealize.ShloMosaic.StableHlo Idealize.SL.Sem

/-- The table of angles of a memory's argument arrays on core `c`: position ids looked up at the wrapped
    indices (no guard), as floats, times the inverse frequencies. -/
def angles (m : (ℓ : Loc Cert.KernelIdeal.nD Cert.KernelIdeal.τ Cert.KernelIdeal.sig) → Buf (Elt Ideal) ℓ) (c : Dev Cert.KernelIdeal.nD) :
    FVec Ideal Cert.KernelIdeal.S2x8192x64 .f32 :=
  Cert.Rope.freqs (F := Ideal)
    (Cert.Rope.gath (m ((c.tc : Thread Cert.KernelIdeal.nD Cert.KernelIdeal.τ).loc Cert.KernelIdeal.main_arg1)) (Cert.Rope.starts (Cert.Rope.idx (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg3)))))
    (m ((c.tc : Thread Cert.KernelIdeal.nD Cert.KernelIdeal.τ).loc Cert.KernelIdeal.main_arg2))

/-- The kernel program at the word level runs and leaves its arguments as they were. -/
theorem frame_kernel : Cert.frame_Kernel := fun m ρ _ => Cert.Kernel.Gen.frame m ρ

/-- The kernel program over the extended reals runs and leaves its arguments as they were. -/
theorem frame_kernelIdeal : Cert.frame_KernelIdeal := fun m ρ _ => Cert.KernelIdeal.Gen.frame m ρ

/-- The reference runs and leaves its arguments as they were: its run, read at the four argument buffers,
    which no operation writes. -/
theorem frame_reference : Cert.frame_ReferenceIdeal := fun m ρ _ =>
  (θ_run Cert.ReferenceIdeal.defs _ _).mono
    (fun _ h c => ⟨(h c Cert.ReferenceIdeal.main_arg0).trans (Cert.Rope.Ref.arg0_kept _), (h c Cert.ReferenceIdeal.main_arg1).trans (Cert.Rope.Ref.arg1_kept _),
      (h c Cert.ReferenceIdeal.main_arg2).trans (Cert.Rope.Ref.arg2_kept _), (h c Cert.ReferenceIdeal.main_arg3).trans (Cert.Rope.Ref.arg3_kept _)⟩)
    (Cert.Rope.Ref.run_main (F := Ideal) m ρ)

/-- The idealizing pass rewrote nothing in this kernel: there is nothing to preserve. -/
theorem preserves : Cert.preserves_Kernel_KernelIdeal := trivial

/-- With every wavelength positive the region is entered with the unguarded angle table: the guard of the
    kernel's lookup never binds. -/
theorem entry_angles (m : (ℓ : Loc Cert.KernelIdeal.nD Cert.KernelIdeal.τ Cert.KernelIdeal.sig) → Buf (Elt Ideal) ℓ) (hpre : Cert.Pre_KernelIdeal m)
    (c : Dev Cert.KernelIdeal.nD) : Cert.KernelIdeal.Gen.V m c Cert.KernelIdeal.main_v17 = angles m c := by
  rw [Cert.Rope.angles_at_entry, Cert.Rope.filled_eq_gath _ _ (Cert.Rope.wavelengths_pos m hpre c)]
  rfl

/-- Over the extended reals, from memories agreeing on the arguments, both programs end with the cosines and
    the sines of the doubled angle table: the kernel block by block (four blocks of 2048 positions cover the
    array), the reference in one piece; and under the precondition the kernel's guarded lookup is the
    reference's plain one. -/
theorem algebraic : Cert.algebraic_KernelIdeal_ReferenceIdeal := by
  intro m ρ m' ρ' hpre hagree
  refine ⟨fun c i => Ideal.cos (angles m c (Cert.Rope.half i)), fun c i => Ideal.sin (angles m c (Cert.Rope.half i)), ?_, ?_⟩
  · refine (θ_run Cert.KernelIdeal.defs _ _).mono (fun r h c => ?_) (Cert.KernelIdeal.Value.run_blocks (F := Ideal) m ρ)
    obtain ⟨h0, h1, ha0, ha1, ha2, ha3⟩ := h c
    refine ⟨?_, ?_, ha0, ha1, ha2, ha3⟩
    · rw [h0, Cert.Rope.cos_array, entry_angles m hpre c]; rfl
    · rw [h1, Cert.Rope.sin_array, entry_angles m hpre c]; rfl
  · refine (θ_run Cert.ReferenceIdeal.defs _ _).mono (fun r h c => ?_) (Cert.Rope.Ref.run_main (F := Ideal) m' ρ')
    obtain ⟨e0, e1, e2, e3⟩ := hagree c
    have hang : Cert.Rope.freqs (F := Ideal)
        (Cert.Rope.gath (m' ((c.tc : Thread Cert.ReferenceIdeal.nD Cert.ReferenceIdeal.τ).loc Cert.ReferenceIdeal.main_arg1))
          (Cert.Rope.starts (Cert.Rope.idx (F := Ideal) (m' ((c.tc : Thread Cert.ReferenceIdeal.nD Cert.ReferenceIdeal.τ).loc Cert.ReferenceIdeal.main_arg1))
            (m' ((c.tc : Thread Cert.ReferenceIdeal.nD Cert.ReferenceIdeal.τ).loc Cert.ReferenceIdeal.main_arg3)))))
        (m' ((c.tc : Thread Cert.ReferenceIdeal.nD Cert.ReferenceIdeal.τ).loc Cert.ReferenceIdeal.main_arg2)) = angles m c := by
      rw [e1, e2, e3]; rfl
    refine ⟨?_, ?_, (h c Cert.ReferenceIdeal.main_arg0).trans (Cert.Rope.Ref.arg0_kept _), (h c Cert.ReferenceIdeal.main_arg1).trans (Cert.Rope.Ref.arg1_kept _),
      (h c Cert.ReferenceIdeal.main_arg2).trans (Cert.Rope.Ref.arg2_kept _), (h c Cert.ReferenceIdeal.main_arg3).trans (Cert.Rope.Ref.arg3_kept _)⟩
    · rw [h c Cert.ReferenceIdeal.main_v25, Cert.Rope.Ref.cos_result]
      exact congrArg (fun (a : FVec Ideal Cert.KernelIdeal.S2x8192x64 .f32) => fun i => Ideal.cos (a (Cert.Rope.half i))) hang
    · rw [h c Cert.ReferenceIdeal.main_v26, Cert.Rope.Ref.sin_result]
      exact congrArg (fun (a : FVec Ideal Cert.KernelIdeal.S2x8192x64 .f32) => fun i => Ideal.sin (a (Cert.Rope.half i))) hang

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
